-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1001 : Shape := ⟨1, ![1001]⟩
abbrev S_ : Shape := ⟨0, ![]⟩

class Facts : Prop where
  bcast_S_S1001 : S_.BroadcastsInDim S1001 (![] : Fin 0 → Fin S1001.rank)
  reducesTo_S1001_S_d0 : S1001.ReducesTo [0] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S1001 .f32) : IVec S_ 1 :=
  let main_v0 : FVec F S1001 .f32 := Host.absf main_arg1
  let main_cst : FVec F S_ .f32 := constant S_ .f32 0x7F800000#32
  let main_v1 : FVec F S1001 .f32 := broadcastInDim S1001 ![] bcast_S_S1001 main_cst
  let main_v2 : IVec S1001 1 := cmpf .olt main_v0 main_v1
  let main_c : IVec S_ 1 := constantI S_ 1 1#1
  let main_v3 : IVec S_ 1 := (fun x v => Host.reduce IntOp.andi x v reducesTo_S1001_S_d0 h_S_) main_v2 main_c
  let main_c_0 : IVec S_ 32 := constantI S_ 32 0#32
  let main_v4 : IVec S16384 32 := broadcastInDim S16384 ![] bcast_S_S16384 main_c_0
  let main_v5 : IVec S16384 1 := cmpi .sge main_arg0 main_v4
  let main_c_1 : IVec S_ 32 := constantI S_ 32 999#32
  let main_v6 : IVec S16384 32 := broadcastInDim S16384 ![] bcast_S_S16384 main_c_1
  let main_v7 : IVec S16384 1 := cmpi .sle main_arg0 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384 : Shape := ⟨1, ![16384]⟩
abbrev S1001 : Shape := ⟨1, ![1001]⟩
abbrev S1024 : Shape := ⟨1, ![1024]⟩
abbrev S_ : Shape := ⟨0, ![]⟩
abbrev S16 : Shape := ⟨1, ![16]⟩

abbrev nBuf : Table → Nat
  | .hbm => 3
  | .local .scVector .vmem => 3
  | _ => 0

abbrev bufTy : (tb : Table) → Fin (nBuf tb) → BufTy
  | .hbm, ⟨0, _⟩ => ⟨S16384, .i32⟩
  | .hbm, ⟨1, _⟩ => ⟨S1001, .f32⟩
  | .hbm, ⟨2, _⟩ => ⟨S16384, .f32⟩
  | .local .scVector .vmem, ⟨0, _⟩ => ⟨S1001, .f32⟩
  | .local .scVector .vmem, ⟨1, _⟩ => ⟨S1024, .i32⟩
  | .local .scVector .vmem, ⟨2, _⟩ => ⟨S1024, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
@[reducible] def k0_t1_loop : Scf.Loop 32 :=
  let c0_i32_0 : BitVec 32 := 0#32
  let c64_i32 : BitVec 32 := 64#32
  let v7 : BitVec 32 := Scalar.addi c0_i32_0 c64_i32
  let c1_i32_1 : BitVec 32 := 1#32
  ⟨c0_i32_0, v7, c1_i32_1⟩
def k0_off2 (k0_t1 : Fin k0_t1_loop.trips) : Fin 1 → Nat :=
  let c0_i32_0 : BitVec 32 := 0#32
  let c1_i32_1 : BitVec 32 := 1#32
  let arg10 : BitVec 32 := Scf.iv c0_i32_0 c1_i32_1 k0_t1
  let c16_i32 : BitVec 32 := 16#32
  let v9 : BitVec 32 := Scalar.muli arg10 c16_i32
  let v10 : Index := Scalar.indexCast v9
  ![v10.toNat]

def k0_chk1 (v11 : IVec S16 32) : Prop :=
  (∀ a x, ((![v11] : Fin 1 → IVec S16 32) a x).toNat < S1001.size a)
instance k0_chk1.dec : ∀ (v11 : IVec S16 32), Decidable (k0_chk1 v11) := fun v11 => decidable_of_iff' _ (Iff.of_eq (k0_chk1.eq_1 v11))
theorem k0_idx1_inb : ∀ (v11 : IVec S16 32) (k0_hw1 : k0_chk1 v11), ∀ a x, ((![v11] : Fin 1 → IVec S16 32) a x).toNat < S1001.size a := fun v11 k0_hw1 => k0_hw1
def k0_off3 (k0_t1 : Fin k0_t1_loop.trips) : Fin 1 → Nat :=
  let c0_i32_0 : BitVec 32 := 0#32
  let c1_i32_1 : BitVec 32 := 1#32
  let arg10 : BitVec 32 := Scf.iv c0_i32_0 c1_i32_1 k0_t1
  let c16_i32 : BitVec 32 := 16#32
  let v9 : BitVec 32 := Scalar.muli arg10 c16_i32
  let v13 : Index := Scalar.indexCast v9
  ![v13.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  h_S16 : 0 < S16.numel
  h_S1001 : 0 < S1001.numel
  hcc0_scratch3 : 0 + S_.numel ≤ 3
  hcc0_scratch4 : 1 + S_.numel ≤ 3
  hcc0_scoped0 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1024.size a ≤ S16384.size a
  k0_t1_ok : k0_t1_loop.OK
  k0_off2_inb : ∀ k0_t1 : Fin k0_t1_loop.trips, ∀ a, (k0_off2 k0_t1) a + S16.size a ≤ S1024.size a
  k0_off3_inb : ∀ k0_t1 : Fin k0_t1_loop.trips, ∀ a, (k0_off3 k0_t1) a + S16.size a ≤ S1024.size a

variable [Facts₀]

abbrev cc0_scratch3 : DmaSems sig S_ := SemArray.consecutive 0 S_ hcc0_scratch3
abbrev cc0_scratch4 : DmaSems sig S_ := SemArray.consecutive 1 S_ hcc0_scratch4
abbrev cc0_scoped0 : DmaSems sig S_ := SemArray.consecutive 2 S_ hcc0_scoped0

class Facts : Prop extends Facts₀ where

variable [Facts]
-- ==== ReferenceIdeal.lean ====
abbrev S16384 : Shape := ⟨1, ![16384]⟩
abbrev S1001 : Shape := ⟨1, ![1001]⟩
abbrev S_ : Shape := ⟨0, ![]⟩
abbrev S16384x1 : Shape := ⟨2, ![16384, 1]⟩
abbrev S1 : Shape := ⟨1, ![1]⟩
abbrev S1x1 : Shape := ⟨2, ![1, 1]⟩

abbrev nBuf : Space → Nat
  | .hbm => 24
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1001, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384, .f32⟩
  | .hbm, ⟨21, _⟩ => ⟨S_, .f32⟩
  | .hbm, ⟨22, _⟩ => ⟨S16384, .f32⟩
  | .hbm, ⟨23, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_cst : Ref sig .tc := ⟨.hbm, 21, rfl⟩
abbrev main_call0_v14 : Ref sig .tc := ⟨.hbm, 22, rfl⟩
abbrev main_v0 : Ref sig .tc := ⟨.hbm, 23, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  gather_S1001_S16384x1_S16384_n_0_n_n_0_1_1_wf : GatherDims.WF S1001 S16384x1 S16384 [] [0] [] [0] [] 1 ![1]

variable [Facts₀]

def gather_S1001_S16384x1_S16384_n_0_n_n_0_1_1 : GatherDims S1001 S16384x1 S16384 where
  offsetDims := []
  collapsedSliceDims := [0]
  operandBatchingDims := []
  startIndicesBatchingDims := []
  startIndexMap := [0]
  indexVectorDim := 1
  sliceSizes := ![1]
  wf := gather_S1001_S16384x1_S16384_n_0_n_n_0_1_1_wf

class Facts : Prop extends Facts₀ where

variable [Facts]
-- ==== Proof.Spec.lean ====
/-
  What both programs compute: entry e of the result is the table's entry numbered by the e-th timestep.
  The timestep is read as an unsigned word and capped at the table's last entry, so that the function is total;
  under the input domain (every timestep between 0 and 999) the cap never acts.
-/
import Idealize.ShloMosaic.Lib.ValueIdx
import Idealize.ShloMosaic.Lib.ReduceAll
import proofs.«204885_g78434692759826_cont_9to1_m_150_15_alg».proof.Pre_input_domain
import proofs.«204885_g78434692759826_cont_9to1_m_150_15_alg».proof.Proof.Gen.Pre_input_domain

noncomputable section

namespace Cert.Spec

open Idealize.ShloMosaic Idealize.ShloMosaic.ValueIdx

/-- The timesteps' shape (16384 entries) and the table's (1001 entries). -/
abbrev SB : Shape := ⟨1, ![16384]⟩
abbrev SV : Shape := ⟨1, ![1001]⟩

/-- The lookup: entry e is the table at timestep e (capped at the last entry). -/
def take {α : Type} (t : SB.Idx → BitVec 32) (b : SV.Idx → α) : SB.Idx → α :=
  fun e => b (ix1 ⟨min (t e).toNat 1000, by omega⟩)

/-- Every timestep lies between 0 and 999, as a signed word. -/
def InRange (t : SB.Idx → BitVec 32) : Prop := ∀ e, 0 ≤ (t e).toInt ∧ (t e).toInt ≤ 999

theorem InRange.toNat_le {t : SB.Idx → BitVec 32} (h : InRange t) (e : SB.Idx) : (t e).toNat ≤ 999 := by
  have := h e
  have h2 := BitVec.toInt_eq_toNat_cond (t e)
  split at h2 <;> omega

theorem InRange.toInt_eq {t : SB.Idx → BitVec 32} (h : InRange t) (e : SB.Idx) : (t e).toInt = (t e).toNat := by
  have := h e
  have h2 := BitVec.toInt_eq_toNat_cond (t e)
  split at h2 <;> omega

instance : Subsingleton (⟨0, ![]⟩ : Shape).Idx := ⟨fun a b => funext fun d => d.elim0⟩

/-- The printed input domain, all ones, says every timestep is in range (its float half is not needed). -/
theorem inRange_of_pre {F : FTy → Type} [FloatOps F] (t : SB.Idx → BitVec 32) (b : FVec F SV .f32)
    (h : Cert.Pre_input_domain.fn (F := F) t b = fun _ => 1#1) : InRange t := by
  have h0 := congrFun h ix0
  dsimp only [Cert.Pre_input_domain.fn] at h0
  obtain ⟨-, h2⟩ := IntOp.andi_eq_one.1 h0
  intro e
  have he := Host.reduce_andi_all _ _ _ _ _ h2 e
  simp only [andi, cmpi, broadcastInDim, constantI] at he
  obtain ⟨h3, h4⟩ := IntOp.andi_eq_one.1 he
  have h3' := IntOp.cmpi_sge.1 h3
  have h4' := IntOp.cmpi_sle.1 h4
  have z : (0#32 : BitVec 32).toInt = 0 := by decide
  have n : (999#32 : BitVec 32).toInt = 999 := by decide
  omega

end Cert.Spec

end
-- ==== Proof.KernelMath.lean ====
/-
  The arithmetic of one subcore's task of the lookup kernel: which entries a trip of the gather loop reads and writes,
  that the gathered prefix grows by sixteen entries per trip, and that the block copied out is the lookup on the block.
-/
import proofs.«204885_g78434692759826_cont_9to1_m_150_15_alg».proof.Defs
import Idealize.ShloMosaic.Lib.Pipeline.Value
import Idealize.ShloMosaic.Lib.ValueIdx
import Idealize.ShloMosaic.Lib.Writes
import proofs.«204885_g78434692759826_cont_9to1_m_150_15_alg».proof.Proof.Gen.Kernel
import proofs.«204885_g78434692759826_cont_9to1_m_150_15_alg».proof.Proof.Spec

noncomputable section

namespace Cert.Proof.KernelMath

open Cert.Kernel Cert.Kernel.Gen
open Idealize.ShloMosaic Idealize.ShloMosaic.ValueIdx

variable {F : FTy → Type}

/-- The block of subcore `L`: entries [1024·L, 1024·L + 1024) of a 16384-entry array; the timesteps' block and the result's. -/
abbrev blk (L : grid0.Coords) : Rect S16384 := Rect.unit (s := S16384) (k0_off1 L) S1024.size (k0_off1_inb L)
abbrev tSl (L : grid0.Coords) : Memref sig .scVector .hbm S1024 .i32 :=
  (Memref.whole main_arg0_scv : Memref sig .scVector .hbm S16384 .i32).slice (blk L) (fun _ => rfl)
abbrev oSl (L : grid0.Coords) : Memref sig .scVector .hbm S1024 .f32 :=
  (Memref.whole main_v0_scv : Memref sig .scVector .hbm S16384 .f32).slice (blk L) (fun _ => rfl)

theorem trips_le : k0_t1_loop.trips ≤ 64 := k0_t1_abs.2.1

theorem off2_zero (k : Fin k0_t1_loop.trips) : k0_off2 k 0 = 16 * k.val := by rw [k0_off2_eq]; rfl
theorem off3_zero (k : Fin k0_t1_loop.trips) : k0_off3 k 0 = 16 * k.val := by rw [k0_off3_eq]; rfl
theorem off1_zero (L : grid0.Coords) : k0_off1 L 0 = 1024 * (L 1).val := by
  rw [k0_off1_eq]
  have : (L 0).val = 0 := by have := (L 0).isLt; change (L 0).val < 1 at this; omega
  show 1024 * (L 1).val + 1024 * (L 0).val = _
  omega

theorem lane_lt (k : Fin k0_t1_loop.trips) (x : S16.Idx) : 16 * k.val + (x 0).val < 1024 := by
  have h1 := trips_le; have h2 := k.isLt; have h3 : (x 0).val < 16 := (x 0).isLt; omega

/-- Sixteen timesteps loaded from the block at trip `k`: lane `x` is entry 16·k + x of the block. -/
theorem lanes_apply (fT : S1024.Idx → BitVec 32) (k : Fin k0_t1_loop.trips) (x : S16.Idx) :
    View.readAt (Elt F) (Memref.whole cc0_scratch1 : Memref sig .scVector .vmem S1024 .i32).view
        (Rect.unit (s := S1024) (k0_off2 k) S16.size (k0_off2_inb k)).toLoadRect fT x
      = fT (ix1 ⟨16 * k.val + (x 0).val, lane_lt k x⟩) := by
  show fT ((Rect.unit (s := S1024) (k0_off2 k) S16.size (k0_off2_inb k)).toLoadRect.idx x) = _
  refine congrArg fT (funext fun a => Fin.ext ?_)
  obtain rfl : a = 0 := Subsingleton.elim _ _
  show k0_off2 k 0 + 1 * (x 0).val = 16 * k.val + (x 0).val
  rw [off2_zero]; omega

/-- The trip's check: every loaded timestep names an entry of the table. -/
theorem chk_of_range (fT : S1024.Idx → BitVec 32) (hT : ∀ j, (fT j).toNat < 1001) (k : Fin k0_t1_loop.trips) :
    k0_chk1 (View.readAt (Elt F) (Memref.whole cc0_scratch1 : Memref sig .scVector .vmem S1024 .i32).view
        (Rect.unit (s := S1024) (k0_off2 k) S16.size (k0_off2_inb k)).toLoadRect fT) := by
  intro a x
  obtain rfl : a = 0 := Subsingleton.elim _ _
  exact lt_of_eq_of_lt (congrArg BitVec.toNat (lanes_apply (F := F) fT k x)) (hT _)

/-- One trip: the sixteen gathered entries stored at 16·k extend the gathered prefix to 16·(k+1) entries. -/
theorem trip_value (fB : S1001.Idx → Elt F .f32) (fT : S1024.Idx → BitVec 32) (f : S1024.Idx → Elt F .f32) (k : Fin k0_t1_loop.trips)
    (hT : ∀ j, (fT j).toNat < 1001)
    (hf : ∀ j : S1024.Idx, (j 0).val < 16 * k.val → f j = fB (ix1 ⟨min (fT j).toNat 1000, by omega⟩))
    (h : ∀ a x, ((![View.readAt (Elt F) (Memref.whole cc0_scratch1 : Memref sig .scVector .vmem S1024 .i32).view
        (Rect.unit (s := S1024) (k0_off2 k) S16.size (k0_off2_inb k)).toLoadRect fT] : Fin 1 → IVec S16 32) a x).toNat < S1001.size a)
    (j : S1024.Idx) (hj : (j 0).val < 16 * (k.val + 1)) :
    (Memref.whole cc0_scratch2 : Memref sig .scVector .vmem S1024 .f32).view.writes (Elt F) f
        [⟨Rect.unit (s := S1024) (k0_off3 k) S16.size (k0_off3_inb k),
          loadIdx (View.read (Elt F) ((Memref.whole cc0_scratch0 : Memref sig .scVector .vmem S1001 .f32).access (Rect.whole cc0_scratch0.ty.shape)) fB)
            ![View.readAt (Elt F) (Memref.whole cc0_scratch1 : Memref sig .scVector .vmem S1024 .i32).view
              (Rect.unit (s := S1024) (k0_off2 k) S16.size (k0_off2_inb k)).toLoadRect fT] h⟩] j
      = fB (ix1 ⟨min (fT j).toNat 1000, by omega⟩) := by
  refine (congrFun (View.write_whole_slice_unit (Val := Elt F) cc0_scratch2 (k0_off3 k) S16.size (k0_off3_inb k) f _) j).trans ?_
  unfold updateSlice
  split
  · next hin =>
    have h0 := hin 0
    rw [off3_zero] at h0
    have h0' : 16 * k.val ≤ (j 0).val ∧ (j 0).val < 16 * k.val + 16 := h0
    have hj0 : (j 0).val < 1024 := (j 0).isLt
    unfold loadIdx idxAt
    rw [Memref.read_access_whole]
    refine congrArg fB (funext fun a => Fin.ext ?_)
    obtain rfl : a = (0 : Fin 1) := Subsingleton.elim (α := Fin 1) _ _
    refine (congrArg BitVec.toNat (lanes_apply (F := F) fT k _)).trans ?_
    have e : (ix1 (⟨16 * k.val + ((j 0).val - k0_off3 k 0), by rw [off3_zero]; omega⟩ : Fin 1024) : S1024.Idx) = j := by
      funext a
      obtain rfl : a = (0 : Fin 1) := Subsingleton.elim (α := Fin 1) _ _
      refine Fin.ext ?_
      show 16 * k.val + ((j 0).val - k0_off3 k 0) = (j 0).val
      rw [off3_zero]; omega
    have hTj := hT j
    show (fT (ix1 ⟨16 * k.val + ((j 0).val - k0_off3 k 0), _⟩)).toNat = min (fT j).toNat 1000
    rw [e]; omega
  · next hout =>
    refine hf j ?_
    by_contra hc
    refine hout fun a => ?_
    obtain rfl : a = (0 : Fin 1) := Subsingleton.elim (α := Fin 1) _ _
    rw [off3_zero]
    show 16 * k.val ≤ (j 0).val ∧ (j 0).val < 16 * k.val + 16
    omega

theorem trips_eq : k0_t1_loop.trips = 64 := by decide

/-- The block of timesteps copied into the subcore: entry j is the array's entry under j. -/
theorem tblock_apply (L : grid0.Coords) (t : S16384.Idx → BitVec 32) (j : S1024.Idx) :
    (tSl L).view.read (Elt F) t j = t ((blk L).emb j) :=
  (View.read_apply _ _).trans (cast_eq _ _)

/-- The gathered block copied out over the result's block leaves, on that block, the lookup. -/
theorem out_value (L : grid0.Coords) (t : S16384.Idx → BitVec 32) (b : S1001.Idx → Elt F .f32) (fo : S16384.Idx → Elt F .f32)
    (f : S1024.Idx → Elt F .f32)
    (hf : ∀ j : S1024.Idx, f j = b (ix1 ⟨min (t ((blk L).emb j)).toNat 1000, by omega⟩))
    (i : S16384.Idx) (hi : i ∈ (oSl L).view.set) :
    (oSl L).view.writes (Elt F) fo [⟨Rect.whole S1024, f⟩] i = Cert.Spec.take t b i := by
  obtain ⟨j, -, rfl⟩ := Finset.mem_map.mp hi
  rw [← View.write_univ_eq_writes_whole (oSl L).view fo [] f, View.writes_nil]
  refine (View.write_emb_of_mem (v := (oSl L).view) fo f (Finset.mem_univ j)).trans ?_
  rw [cast_eq]
  exact hf j

end Cert.Proof.KernelMath
end
-- ==== Proof.KernelTile.lean ====
/-
  One vector subcore's task of the lookup kernel, at a symbolic (SparseCore, subcore) pair: the subcore copies the whole
  table and its own block of 1024 timesteps into its memory, gathers the table at each timestep sixteen lanes at a time
  into a third buffer, and copies that buffer out to its block of the result. After the task the block of the result
  holds, entry by entry, the table at the block's timesteps.
-/
import proofs.«204885_g78434692759826_cont_9to1_m_150_15_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204885_g78434692759826_cont_9to1_m_150_15_alg».proof.Proof.Gen.Kernel
import proofs.«204885_g78434692759826_cont_9to1_m_150_15_alg».proof.Proof.Gen.Kernel.Skeleton
import proofs.«204885_g78434692759826_cont_9to1_m_150_15_alg».proof.Proof.Spec
import proofs.«204885_g78434692759826_cont_9to1_m_150_15_alg».proof.Proof.KernelMath

noncomputable section

namespace Cert.Proof.KernelTile

open Cert.Kernel Cert.Kernel.Gen Cert.Proof.KernelMath

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

/-- The timesteps and the table (the arguments), the result, as locations of device `d`. -/
abbrev tLoc (d : Dev nD) : Loc nD τ sig := (SparseCore.T d).loc main_arg0
abbrev bLoc (d : Dev nD) : Loc nD τ sig := (SparseCore.T d).loc main_arg1
abbrev oLoc (d : Dev nD) : Loc nD τ sig := (SparseCore.T d).loc main_v0

variable [FloatOps F]

local notation "tW" => (Memref.whole Cert.Kernel.main_arg0_scv : Memref Cert.Kernel.sig Kind.scVector Space.hbm Cert.Kernel.S16384 EltTy.i32)
local notation "bW" => (Memref.whole Cert.Kernel.main_arg1_scv : Memref Cert.Kernel.sig Kind.scVector Space.hbm Cert.Kernel.S1001 EltTy.f32)
local notation "oW" => (Memref.whole Cert.Kernel.main_v0_scv : Memref Cert.Kernel.sig Kind.scVector Space.hbm Cert.Kernel.S16384 EltTy.f32)
/-- A subcore's own memory: the table's copy, the block of timesteps, the gathered block. -/
local notation "sB" => (Memref.whole Cert.Kernel.cc0_scratch0 : Memref Cert.Kernel.sig Kind.scVector Space.vmem Cert.Kernel.S1001 EltTy.f32)
local notation "sT" => (Memref.whole Cert.Kernel.cc0_scratch1 : Memref Cert.Kernel.sig Kind.scVector Space.vmem Cert.Kernel.S1024 EltTy.i32)
local notation "sO" => (Memref.whole Cert.Kernel.cc0_scratch2 : Memref Cert.Kernel.sig Kind.scVector Space.vmem Cert.Kernel.S1024 EltTy.f32)

/-! ## The blocks, and what the handshakes carry -/

theorem hdiv : 16 ∣ S16384.size 0 := ⟨1024, rfl⟩
/-- The sixteen blocks of 1024 consecutive entries of a 16384-entry array, and block `i` as a set of its indices. -/
abbrev part (i : Fin 16) : Rect S16384 := Rect.part (s := S16384) (a₀ := 0) hdiv i
abbrev blkSet (i : Fin 16) : Finset S16384.Idx := ((tW).view.slice (part i)).set

abbrev tPts (d : Dev nD) : sProp 𝕄 := tLoc d ↦{fullShare} m (tLoc d)
abbrev bPts (d : Dev nD) (q : PosShare TreeShare) : sProp 𝕄 := bLoc d ↦{q} m (bLoc d)
abbrev oPts (d : Dev nD) (f : Buf (Elt F) (oLoc d)) : sProp 𝕄 := oLoc d ↦{fullShare} f
abbrev tBlk (d : Dev nD) (i : Fin 16) : sProp 𝕄 := tLoc d ↦[blkSet i]{fullShare} m (tLoc d)
abbrev oBlk (d : Dev nD) (i : Fin 16) (f : Buf (Elt F) (oLoc d)) : sProp 𝕄 := oLoc d ↦[blkSet i]{fullShare} f

/-- The lookup of the launch memory's timesteps in its table: what the result ends at. -/
def G (d : Dev nD) : Buf (Elt F) (oLoc d) := Cert.Spec.take (m (tLoc d)) (m (bLoc d))

/-- The call takes the timesteps, the table and the result whole; a task takes its block of the timesteps and of the
    result and a read share of the table, and brings them back, the result's block at the lookup. -/
def P : (K (F := F)).Pay (nD := nD) (Val := Elt F) (Name := ℕ) (U := UU) where
  st := fun _ d _ => iprop(tPts m d ∗ bPts m d fullShare ∗ oPts d (m (oLoc d)))
  dn := fun _ d _ => iprop(tPts m d ∗ bPts m d fullShare ∗ oPts d (G m d))
  go := fun q d _ i => match q with
    | 0 => iprop(tBlk m d (Fin.cast nSub_zero i) ∗ bPts m d (Transfers.shareTok fullShare 16 (Fin.cast nSub_zero i)) ∗ oBlk d (Fin.cast nSub_zero i) (m (oLoc d)))
  td := fun q d _ i => match q with
    | 0 => iprop(tBlk m d (Fin.cast nSub_zero i) ∗ bPts m d (Transfers.shareTok fullShare 16 (Fin.cast nSub_zero i)) ∗ oBlk d (Fin.cast nSub_zero i) (G m d))
  x := fun _ _ => iprop(emp)

instance P_storable : (P (F := F) m).IsStorable where
  st _ d _ := by unfold P; infer_instance
  dn _ d _ := by unfold P; infer_instance
  go q d _ i := match q with
    | 0 => (inferInstance : BI.Storable (upEmb : UEmb _ 𝕄)
        iprop(tBlk m d (Fin.cast nSub_zero i) ∗ bPts m d (Transfers.shareTok fullShare 16 (Fin.cast nSub_zero i)) ∗ oBlk d (Fin.cast nSub_zero i) (m (oLoc d))))
  td q d _ i := match q with
    | 0 => (inferInstance : BI.Storable (upEmb : UEmb _ 𝕄)
        iprop(tBlk m d (Fin.cast nSub_zero i) ∗ bPts m d (Transfers.shareTok fullShare 16 (Fin.cast nSub_zero i)) ∗ oBlk d (Fin.cast nSub_zero i) (G m d)))

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)

omit [FloatOps F] in
/-- Subcore `L`'s block, as the program slices it, is block `L` of the sixteen. -/
theorem blk_eq : blk L = part (jL L) := by
  unfold blk part Rect.part Rect.block
  congr 1 <;> funext a
  · obtain rfl : a = (0 : Fin 1) := Subsingleton.elim (α := Fin 1) _ _
    rw [off1_zero]
    show 1024 * (L 1).val = (L 1).val * (16384 / 16)
    omega
  · obtain rfl : a = (0 : Fin 1) := Subsingleton.elim (α := Fin 1) _ _
    rfl

omit [FloatOps F] in
theorem set_tSl : (tSl L).view.set = blkSet (jL L) := by
  show ((tW).view.slice (blk L)).set = ((tW).view.slice (part (jL L))).set
  rw [blk_eq]
omit [FloatOps F] in
theorem set_oSl : (oSl L).view.set = blkSet (jL L) := by
  show ((oW).view.slice (blk L)).set = ((tW).view.slice (part (jL L))).set
  rw [blk_eq]; rfl

omit [FloatOps F] in
theorem pts_tSl (f : Buf (Elt F) (tLoc d)) :
    ((tSl L).view.loc (V d (cV L) (jV L)) ↦[(tSl L).view.set]{fullShare} f : sProp 𝕄) = tLoc d ↦[blkSet (jL L)]{fullShare} f := by
  rw [set_tSl]
omit [FloatOps F] in
theorem pts_oSl (f : Buf (Elt F) (oLoc d)) :
    ((oSl L).view.loc (V d (cV L) (jV L)) ↦[(oSl L).view.set]{fullShare} f : sProp 𝕄) = oLoc d ↦[blkSet (jL L)]{fullShare} f := by
  rw [set_oSl]
omit [FloatOps F] in
theorem pts_bW (q : PosShare TreeShare) (f : Buf (Elt F) (bLoc d)) :
    ((bW).view.loc (V d (cV L) (jV L)) ↦{q} f : sProp 𝕄) = bLoc d ↦{q} f := rfl
omit [FloatOps F] in
theorem pts_sB (f : Buf (Elt F) ((V d (cV L) (jV L)).loc cc0_scratch0)) :
    ((sB).view.loc (V d (cV L) (jV L)) ↦{fullShare} f : sProp 𝕄) = (V d (cV L) (jV L)).loc cc0_scratch0 ↦{fullShare} f := rfl
omit [FloatOps F] in
theorem pts_sT (f : Buf (Elt F) ((V d (cV L) (jV L)).loc cc0_scratch1)) :
    ((sT).view.loc (V d (cV L) (jV L)) ↦{fullShare} f : sProp 𝕄) = (V d (cV L) (jV L)).loc cc0_scratch1 ↦{fullShare} f := rfl
omit [FloatOps F] in
theorem pts_sO (f : Buf (Elt F) ((V d (cV L) (jV L)).loc cc0_scratch2)) :
    ((sO).view.loc (V d (cV L) (jV L)) ↦{fullShare} f : sProp 𝕄) = (V d (cV L) (jV L)).loc cc0_scratch2 ↦{fullShare} f := rfl
omit [FloatOps F] in
theorem pts_sB_access (f : Buf (Elt F) ((V d (cV L) (jV L)).loc cc0_scratch0)) :
    ((sB).view.loc (V d (cV L) (jV L)) ↦{fullShare} f : sProp 𝕄) = (((sB).access (.whole S1001)).loc (V d (cV L) (jV L)) ↦{fullShare} f) := rfl

/-- The subcore's three transfer semaphores. -/
abbrev c3cell (d : Dev nD) (c : Fin τ.nSC) (i : Fin τ.nSub) : GSem nD τ sig := (V d c i, .dma cc0_scratch3.sem)
abbrev c4cell (d : Dev nD) (c : Fin τ.nSC) (i : Fin τ.nSub) : GSem nD τ sig := (V d c i, .dma cc0_scratch4.sem)
abbrev c5cell (d : Dev nD) (c : Fin τ.nSC) (i : Fin τ.nSub) : GSem nD τ sig := (V d c i, .dma cc0_scoped0.sem)

omit [FloatOps F] in
theorem ownSems0_V :
    (ownSems0 (V d (cV L) (jV L)) : sProp 𝕄)
      = iprop(semVal (c3cell d (cV L) (jV L)) 0 ∗ semVal (c4cell d (cV L) (jV L)) 0 ∗ semVal (c5cell d (cV L) (jV L)) 0
          ∗ bigSep ((((ownCells (V d (cV L) (jV L))).erase (c3cell d (cV L) (jV L))).erase (c4cell d (cV L) (jV L))).erase (c5cell d (cV L) (jV L)))
              fun g => semVal g 0) := by
  unfold SparseCore.Cfg.ownSems0
  rw [SparseCore.bigSep_erase' ((mem_ownCells (g := c3cell d (cV L) (jV L))).mpr ⟨rfl, by
      show (SemLoc.dma cc0_scratch3.sem : SemLoc sig).isScoped .scVector = true; decide⟩),
    SparseCore.bigSep_erase' (Finset.mem_erase.mpr ⟨by simp [c3cell, c4cell]; decide, (mem_ownCells (g := c4cell d (cV L) (jV L))).mpr ⟨rfl, by
      show (SemLoc.dma cc0_scratch4.sem : SemLoc sig).isScoped .scVector = true; decide⟩⟩),
    SparseCore.bigSep_erase' (Finset.mem_erase.mpr ⟨by simp [c4cell, c5cell]; decide, Finset.mem_erase.mpr ⟨by simp [c3cell, c5cell]; decide,
      (mem_ownCells (g := c5cell d (cV L) (jV L))).mpr ⟨rfl, by show (SemLoc.dma cc0_scoped0.sem : SemLoc sig).isScoped .scVector = true; decide⟩⟩⟩)]

omit [FloatOps F] in
/-- The three buffers of the subcore's own memory are among its own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- The gather loop's invariant: the table's copy and the block of timesteps as fetched, and after `k` trips the first
    16·k entries of the gathered block are the table at the block's timesteps. -/
def inv (fB : Buf (Elt F) ((V d (cV L) (jV L)).loc cc0_scratch0)) (fT : Buf (Elt F) ((V d (cV L) (jV L)).loc cc0_scratch1)) (k : Nat) (_ : BitVec 32) : sProp 𝕄 :=
  iprop(((sB).view.loc (V d (cV L) (jV L)) ↦{fullShare} fB) ∗ ((sT).view.loc (V d (cV L) (jV L)) ↦{fullShare} fT)
    ∗ ∃ f : Buf (Elt F) ((V d (cV L) (jV L)).loc cc0_scratch2), ⌜∀ j : S1024.Idx, (j 0).val < 16 * k →
        (f : S1024.Idx → Elt F .f32) j = (fB : S1001.Idx → Elt F .f32) (ix1 ⟨min ((fT : S1024.Idx → BitVec 32) j).toNat 1000, by omega⟩)⌝
      ∗ ((sO).view.loc (V d (cV L) (jV L)) ↦{fullShare} f))

/-- The task on vector subcore `L` of device `d`: the two fetches and their waits, the gather loop, the copy out and its
    wait; the result's block ends at the lookup. -/
theorem tile_body (hF : (K (F := F)).Facts) (hr : Cert.Spec.InRange (m (tLoc d))) (q : PosShare TreeShare)
    (O : CellTallies nD τ sig (HIx 1)) (W : Waits sig (HIx 1)) (hO : ∀ g, O g none = 0) :
    (iprop(levAts (K (F := F)).L (K (F := F)).lev ∗ emp
        ∗ (tBlk m d (jL L) ∗ bPts m d q ∗ oBlk d (jL L) (m (oLoc d)))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__gather_body L tW (Memref.isWhole_whole _) bW (Memref.isWhole_whole _) oW (Memref.isWhole_whole _)
            sB (Memref.isWhole_whole _) sT (Memref.isWhole_whole _) sO (Memref.isWhole_whole _) cc0_scratch3 cc0_scratch4 cc0_scoped0)
          fun _ => iprop((tBlk m d (jL L) ∗ bPts m d q ∗ oBlk d (jL L) (G m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0__gather_body_eq_skeleton]; unfold cc0__gather_body_skel
  rw [(K (F := F)).scopedBufs_V hF d (cV L) (jV L), SparseCore.Cfg.scopedSems0_V (Val := Elt F) d (cV L) (jV L), ownSems0_V, ownBufs_V]
  iintro ⟨#Hlv, -, ⟨Ht, Hb, Ho⟩, ⟨⟨%f0, H0⟩, ⟨%f1, H1⟩, ⟨%f2, H2⟩, Hbufs⟩, ⟨Hs3, Hs4, Hs5, Hsems⟩, HO⟩
  ihave Hmw := ((K (F := F)).mayWaits_none (thr := V d (cV L) (jV L)) hO) $$ Hlv
  ihave Ht := (Entails.of_eq (pts_tSl (F := F) d L _).symm) $$ Ht
  ihave Hb := (Entails.of_eq (pts_bW (F := F) d L q _).symm) $$ Hb
  ihave Ho := (Entails.of_eq (pts_oSl (F := F) d L _).symm) $$ Ho
  ihave H0 := (Entails.of_eq (pts_sB (F := F) d L _).symm) $$ H0
  ihave H1 := (Entails.of_eq (pts_sT (F := F) d L _).symm) $$ H1
  ihave H2 := (Entails.of_eq (pts_sO (F := F) d L _).symm) $$ H2
  -- the two fetches and their waits
  sl_exec
  generalize hB : View.write (Elt F) (Memref.whole cc0_scratch0).view f0 _ Finset.univ = fB
  generalize hT : View.write (Elt F) (Memref.whole cc0_scratch1).view f1 _ Finset.univ = fT
  have hB' : (fB : S1001.Idx → Elt F .f32) = m (bLoc d) := hB.symm.trans (View.write_whole_univ _ _ _)
  have hT' : (fT : S1024.Idx → BitVec 32) = (tSl L).view.read (Elt F) (m (tLoc d)) := hT.symm.trans (View.write_whole_univ _ _ _)
  have hT1 : ∀ j : S1024.Idx, ((fT : S1024.Idx → BitVec 32) j).toNat < 1001 := fun j => by
    rw [hT', tblock_apply]; exact Nat.lt_of_le_of_lt (hr.toNat_le _) (by norm_num)
  -- the gather loop
  sl_for (inv d L fB fT) $$ [H0 H1 H2]
  case region =>
    intro k _
    unfold inv
    iintro ⟨H0, H1, %f, %hf, H2⟩
    sl_exec
    rw [wp_assume_of _ _ _ _ (chk_of_range (F := F) fT hT1 k)]
    ihave H0' := (Entails.of_eq (pts_sB_access (F := F) d L _)) $$ H0
    iapply (SparseCore.wp_vectorLoadIdx 𝒱₀ (V d (cV L) (jV L)) none Set.univ (base := sB) (S := Finset.univ) (q := fullShare) (Finset.subset_univ _)) $$ H0'; iintro H0'
    sl_exec
    sl_step
    isplitl [H0']; · iapply (Entails.of_eq (pts_sB_access (F := F) d L _).symm); iexact H0'
    isplitl [H1]; · iexact H1
    iexists _; isplitr
    rotate_left
    · iexact H2
    · ipureintro; exact fun j hj => trip_value (F := F) fB fT f k hT1 hf _ j hj
  · unfold inv
    isplitl [H0]; · iexact H0
    isplitl [H1]; · iexact H1
    iexists f2; isplitr
    · ipureintro; intro j hj; omega
    · iexact H2
  iintro %_ HI
  unfold inv
  icases HI with ⟨H0, H1, %f, %hf, H2⟩
  -- the copy out and its wait
  sl_exec
  sl_step
  have hout : ∀ i ∈ (oSl L).view.set, (oSl L).view.writes (Elt F) (m (oLoc d)) [⟨Rect.whole S1024, (f : S1024.Idx → Elt F .f32)⟩] i = G m d i :=
    fun i hi => out_value (F := F) L (m (tLoc d)) (m (bLoc d)) (m (oLoc d)) f (fun j => by
      have h1 := hf j (by
        have e : Scf.trips k0_t1_loop.lb k0_t1_loop.ub k0_t1_loop.st = 64 := trips_eq
        have : (j 0).val < 1024 := (j 0).isLt
        omega)
      rw [h1, hB']; congr 3; rw [hT', tblock_apply]) i hi
  ihave Ho := (Entails.of_eq (pointsTo_congr hout)) $$ Ho
  isplitl [Ht Hb Ho]
  · isplitl [Ht]; · iapply (Entails.of_eq (pts_tSl (F := F) d L _)); iexact Ht
    isplitl [Hb]; · iexact Hb
    iapply (Entails.of_eq (pts_oSl (F := F) d L _)); iexact Ho
  isplitl [H0 H1 H2 Hbufs]
  · isplitl [H0]; · iexists _; iexact H0
    isplitl [H1]; · iexists _; iexact H1
    isplitl [H2]; · iexists _; iexact H2
    iexact Hbufs
  isplitl [Hs3 Hs4 Hs5 Hsems]
  · isplitl [Hs3]; · iexact Hs3
    isplitl [Hs4]; · iexact Hs4
    isplitl [Hs5]; · iexact Hs5
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp

end Tile

/-! ## The launch theorem's obligation for the task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_body (coordsV c s)
          tW (Memref.isWhole_whole _) bW (Memref.isWhole_whole _) oW (Memref.isWhole_whole _)
          sB (Memref.isWhole_whole _) sT (Memref.isWhole_whole _) sO (Memref.isWhole_whole _) cc0_scratch3 cc0_scratch4 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hr : ∀ d : Dev nD, Cert.Spec.InRange (m (tLoc d))) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF (hr d) _ O W hO).trans (wp_mono frame _ _ fun _ => obl_post)

end Cert.Proof.KernelTile

end
-- ==== Proof.KernelLaunch.lean ====
/-
  The lookup kernel's run: the sixteen tasks' blocks tile the timesteps and the result, the table goes out as sixteen read
  shares and comes back whole, and the program's run ends with the result at the lookup of the launch memory's timesteps
  in its table, the two arguments unchanged.
-/
import proofs.«204885_g78434692759826_cont_9to1_m_150_15_alg».proof.Proof.KernelTile

noncomputable section

namespace Cert.Proof.KernelLaunch

open Cert.Kernel Cert.Kernel.Gen Cert.Proof.KernelMath Cert.Proof.KernelTile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The sixteen blocks tile the array; the table's read shares -/

omit [FloatOps F] in
theorem blkSet_eq (i : Fin 16) : blkSet i = (part i).set := by
  show ((View.whole (main_arg0_scv : Ref sig .scVector)).slice (part i)).set = _
  rw [View.set_slice]; exact Finset.map_refl
omit [FloatOps F] in
theorem blocks_disjoint : ∀ i ∈ (Finset.univ : Finset (Fin 16)), ∀ j ∈ (Finset.univ : Finset (Fin 16)), i ≠ j → Disjoint (blkSet i) (blkSet j) :=
  fun i _ j _ h => by rw [blkSet_eq, blkSet_eq]; exact Rect.part_disjoint hdiv h
omit [FloatOps F] in
theorem blocks_cover : (Finset.univ : Finset (Fin 16)).biUnion blkSet = Finset.univ :=
  (Finset.biUnion_congr rfl fun i _ => blkSet_eq i).trans (Rect.biUnion_part hdiv)

omit [FloatOps F] in
theorem tPts_blocks (d : Dev nD) (f : Buf (Elt F) (tLoc d)) :
    (tLoc d ↦{fullShare} f : sProp 𝕄) = bigSep Finset.univ fun i : Fin 16 => tLoc d ↦[blkSet i]{fullShare} f := by
  rw [← pointsTo_biUnion Finset.univ (ℓ := tLoc d) blkSet blocks_disjoint, blocks_cover]; try rfl
omit [FloatOps F] in
theorem oPts_blocks (d : Dev nD) (f : Buf (Elt F) (oLoc d)) :
    (oLoc d ↦{fullShare} f : sProp 𝕄) = bigSep Finset.univ fun i : Fin 16 => oLoc d ↦[blkSet i]{fullShare} f := by
  rw [← pointsTo_biUnion Finset.univ (ℓ := oLoc d) blkSet blocks_disjoint, blocks_cover]; try rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show iprop(tPts m d ∗ bPts m d fullShare ∗ oPts d (m (oLoc d))) ⊢ |={Set.univ}=> iprop(
      (bigSep Finset.univ fun i : Fin ((K (F := F)).nSub 0) =>
        iprop(tBlk m d (Fin.cast nSub_zero i) ∗ bPts m d (Transfers.shareTok fullShare 16 (Fin.cast nSub_zero i)) ∗ oBlk d (Fin.cast nSub_zero i) (m (oLoc d))))
      ∗ ((bigSep Finset.univ fun i : Fin ((K (F := F)).nSub 0) =>
          iprop(tBlk m d (Fin.cast nSub_zero i) ∗ bPts m d (Transfers.shareTok fullShare 16 (Fin.cast nSub_zero i)) ∗ oBlk d (Fin.cast nSub_zero i) (G m d)))
          -∗ iprop(tPts m d ∗ bPts m d fullShare ∗ oPts d (G m d))))
  rw [bigSep_tasks (F := F) (fun i => iprop(tBlk m d i ∗ bPts m d (Transfers.shareTok fullShare 16 i) ∗ oBlk d i (m (oLoc d)))),
    bigSep_tasks (F := F) (fun i => iprop(tBlk m d i ∗ bPts m d (Transfers.shareTok fullShare 16 i) ∗ oBlk d i (G m d))), bigSep_sep', bigSep_sep', bigSep_sep', bigSep_sep']
  unfold tPts oPts tBlk oBlk
  rw [tPts_blocks, oPts_blocks, oPts_blocks]
  iintro ⟨Ht, Hb, Ho⟩
  ihave Hb' := (Transfers.pointsTo_toks_split (ℓ := bLoc d) (S := Finset.univ) (f := m (bLoc d)) fullShare 16) $$ Hb
  icases Hb' with ⟨Hrest, Htoks⟩
  imodintro
  isplitl [Ht Htoks Ho]
  · isplitl [Ht]; · iexact Ht
    isplitl [Htoks]; · iexact Htoks
    iexact Ho
  iintro ⟨Ht, Htoks, Ho⟩
  isplitl [Ht]; · iexact Ht
  isplitl [Hrest Htoks]
  · iapply (Transfers.pointsTo_toks_join (ℓ := bLoc d) (S := Finset.univ) (f := m (bLoc d)) fullShare 16)
    isplitl [Hrest]; · iexact Hrest
    iexact Htoks
  iexact Ho

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((tLoc d ↦{fullShare} W main_arg0) ∗ (bLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m).st 0 d c) = iprop(tPts m d ∗ bPts m d fullShare ∗ oPts d (m (oLoc d))) :=
  bigSep_univ_of_subsingleton (0 : Fin 1)
theorem dn0_eq (d : Dev nD) : (bigSep Finset.univ fun c : Fin ((K (F := F)).nCore 0) => (P m).dn 0 d c) = iprop(tPts m d ∗ bPts m d fullShare ∗ oPts d (G m d)) :=
  bigSep_univ_of_subsingleton (0 : Fin 1)

/-- What @main leaves the claim: the arguments at their launch contents, the result at the lookup. -/
abbrev FIN (d : Dev nD) : sProp 𝕄 := iprop(tPts m d ∗ bPts m d fullShare ∗ oPts d (G m d))

/-- @main on device `d`'s TensorCore: the one call, from the three arrays whole, and back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ht, Hbt, Ho⟩, -, -⟩, -⟩
  iapply ((K (F := F)).wp_run (D (F := F)) 𝒱 (EH := EH) (P := P m) κ d 0) $$ [Hst Ht Hbt Ho]
  isplitr; · iexact Hctx
  isplitl [Hst]; · iexact Hst
  isplitl [Ht Hbt Ho]
  · rw [st0_eq]
    isplitl [Ht]; · iexact Ht
    isplitl [Hbt]; · iexact Hbt
    iexact Ho
  iintro ⟨Hst, Hdn⟩
  ihave Hdn' := (Entails.of_eq (dn0_eq m d)) $$ Hdn
  imodintro
  isplitl [Hst]; · iexact Hst
  iexact Hdn'

def fq (d : Dev nD) (s' : Phys nD τ sig (Elt F)) : Prop :=
  s'.mem.mem (oLoc d) = G m d ∧ s'.mem.mem (tLoc d) = m (tLoc d) ∧ s'.mem.mem (bLoc d) = m (bLoc d)

theorem hfin (d : Dev nD) (s' : Phys nD τ sig (Elt F)) : iprop(FIN m d ∗ SI s') ⊢ (⌜fq m d s'⌝ : sProp 𝕄) := by
  iintro ⟨⟨Ht, Hb, Ho⟩, HSI⟩
  ihave H := (persistent_entails_right (SI_pointsTo_agree (st := s') (ℓ := tLoc d) (I := Finset.univ) (q := fullShare) (f := m (tLoc d)))) $$ [HSI Ht]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := oLoc d) (I := Finset.univ) (q := fullShare) (f := G m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = G m c ∧ r.2.mem (tLoc c) = m (tLoc c) ∧ r.2.mem (bLoc c) = m (bLoc c)

/-- Every weakly fair execution of the device's threads terminates, nothing faulting, with the result at the lookup of
    the launch memory's timesteps in its table and the two arguments unchanged. -/
theorem run_main [∀ e, Nonempty (Elt F e)] (hr : ∀ d : Dev nD, Cert.Spec.InRange (m (tLoc d))) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hr)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KernelLaunch

end
-- ==== Proof.KernelIdealMath.lean ====
/-
  The arithmetic of one subcore's task of the lookup kernel: which entries a trip of the gather loop reads and writes,
  that the gathered prefix grows by sixteen entries per trip, and that the block copied out is the lookup on the block.
-/
import proofs.«204885_g78434692759826_cont_9to1_m_150_15_alg».proof.Defs
import Idealize.ShloMosaic.Lib.Pipeline.Value
import Idealize.ShloMosaic.Lib.ValueIdx
import Idealize.ShloMosaic.Lib.Writes
import proofs.«204885_g78434692759826_cont_9to1_m_150_15_alg».proof.Proof.Gen.KernelIdeal
import proofs.«204885_g78434692759826_cont_9to1_m_150_15_alg».proof.Proof.Spec

noncomputable section

namespace Cert.Proof.KernelIdealMath

open Cert.KernelIdeal Cert.KernelIdeal.Gen
open Idealize.ShloMosaic Idealize.ShloMosaic.ValueIdx

variable {F : FTy → Type}

/-- The block of subcore `L`: entries [1024·L, 1024·L + 1024) of a 16384-entry array; the timesteps' block and the result's. -/
abbrev blk (L : grid0.Coords) : Rect S16384 := Rect.unit (s := S16384) (k0_off1 L) S1024.size (k0_off1_inb L)
abbrev tSl (L : grid0.Coords) : Memref sig .scVector .hbm S1024 .i32 :=
  (Memref.whole main_arg0_scv : Memref sig .scVector .hbm S16384 .i32).slice (blk L) (fun _ => rfl)
abbrev oSl (L : grid0.Coords) : Memref sig .scVector .hbm S1024 .f32 :=
  (Memref.whole main_v0_scv : Memref sig .scVector .hbm S16384 .f32).slice (blk L) (fun _ => rfl)

theorem trips_le : k0_t1_loop.trips ≤ 64 := k0_t1_abs.2.1

theorem off2_zero (k : Fin k0_t1_loop.trips) : k0_off2 k 0 = 16 * k.val := by rw [k0_off2_eq]; rfl
theorem off3_zero (k : Fin k0_t1_loop.trips) : k0_off3 k 0 = 16 * k.val := by rw [k0_off3_eq]; rfl
theorem off1_zero (L : grid0.Coords) : k0_off1 L 0 = 1024 * (L 1).val := by
  rw [k0_off1_eq]
  have : (L 0).val = 0 := by have := (L 0).isLt; change (L 0).val < 1 at this; omega
  show 1024 * (L 1).val + 1024 * (L 0).val = _
  omega

theorem lane_lt (k : Fin k0_t1_loop.trips) (x : S16.Idx) : 16 * k.val + (x 0).val < 1024 := by
  have h1 := trips_le; have h2 := k.isLt; have h3 : (x 0).val < 16 := (x 0).isLt; omega

/-- Sixteen timesteps loaded from the block at trip `k`: lane `x` is entry 16·k + x of the block. -/
theorem lanes_apply (fT : S1024.Idx → BitVec 32) (k : Fin k0_t1_loop.trips) (x : S16.Idx) :
    View.readAt (Elt F) (Memref.whole cc0_scratch1 : Memref sig .scVector .vmem S1024 .i32).view
        (Rect.unit (s := S1024) (k0_off2 k) S16.size (k0_off2_inb k)).toLoadRect fT x
      = fT (ix1 ⟨16 * k.val + (x 0).val, lane_lt k x⟩) := by
  show fT ((Rect.unit (s := S1024) (k0_off2 k) S16.size (k0_off2_inb k)).toLoadRect.idx x) = _
  refine congrArg fT (funext fun a => Fin.ext ?_)
  obtain rfl : a = 0 := Subsingleton.elim _ _
  show k0_off2 k 0 + 1 * (x 0).val = 16 * k.val + (x 0).val
  rw [off2_zero]; omega

/-- The trip's check: every loaded timestep names an entry of the table. -/
theorem chk_of_range (fT : S1024.Idx → BitVec 32) (hT : ∀ j, (fT j).toNat < 1001) (k : Fin k0_t1_loop.trips) :
    k0_chk1 (View.readAt (Elt F) (Memref.whole cc0_scratch1 : Memref sig .scVector .vmem S1024 .i32).view
        (Rect.unit (s := S1024) (k0_off2 k) S16.size (k0_off2_inb k)).toLoadRect fT) := by
  intro a x
  obtain rfl : a = 0 := Subsingleton.elim _ _
  exact lt_of_eq_of_lt (congrArg BitVec.toNat (lanes_apply (F := F) fT k x)) (hT _)

/-- One trip: the sixteen gathered entries stored at 16·k extend the gathered prefix to 16·(k+1) entries. -/
theorem trip_value (fB : S1001.Idx → Elt F .f32) (fT : S1024.Idx → BitVec 32) (f : S1024.Idx → Elt F .f32) (k : Fin k0_t1_loop.trips)
    (hT : ∀ j, (fT j).toNat < 1001)
    (hf : ∀ j : S1024.Idx, (j 0).val < 16 * k.val → f j = fB (ix1 ⟨min (fT j).toNat 1000, by omega⟩))
    (h : ∀ a x, ((![View.readAt (Elt F) (Memref.whole cc0_scratch1 : Memref sig .scVector .vmem S1024 .i32).view
        (Rect.unit (s := S1024) (k0_off2 k) S16.size (k0_off2_inb k)).toLoadRect fT] : Fin 1 → IVec S16 32) a x).toNat < S1001.size a)
    (j : S1024.Idx) (hj : (j 0).val < 16 * (k.val + 1)) :
    (Memref.whole cc0_scratch2 : Memref sig .scVector .vmem S1024 .f32).view.writes (Elt F) f
        [⟨Rect.unit (s := S1024) (k0_off3 k) S16.size (k0_off3_inb k),
          loadIdx (View.read (Elt F) ((Memref.whole cc0_scratch0 : Memref sig .scVector .vmem S1001 .f32).access (Rect.whole cc0_scratch0.ty.shape)) fB)
            ![View.readAt (Elt F) (Memref.whole cc0_scratch1 : Memref sig .scVector .vmem S1024 .i32).view
              (Rect.unit (s := S1024) (k0_off2 k) S16.size (k0_off2_inb k)).toLoadRect fT] h⟩] j
      = fB (ix1 ⟨min (fT j).toNat 1000, by omega⟩) := by
  refine (congrFun (View.write_whole_slice_unit (Val := Elt F) cc0_scratch2 (k0_off3 k) S16.size (k0_off3_inb k) f _) j).trans ?_
  unfold updateSlice
  split
  · next hin =>
    have h0 := hin 0
    rw [off3_zero] at h0
    have h0' : 16 * k.val ≤ (j 0).val ∧ (j 0).val < 16 * k.val + 16 := h0
    have hj0 : (j 0).val < 1024 := (j 0).isLt
    unfold loadIdx idxAt
    rw [Memref.read_access_whole]
    refine congrArg fB (funext fun a => Fin.ext ?_)
    obtain rfl : a = (0 : Fin 1) := Subsingleton.elim (α := Fin 1) _ _
    refine (congrArg BitVec.toNat (lanes_apply (F := F) fT k _)).trans ?_
    have e : (ix1 (⟨16 * k.val + ((j 0).val - k0_off3 k 0), by rw [off3_zero]; omega⟩ : Fin 1024) : S1024.Idx) = j := by
      funext a
      obtain rfl : a = (0 : Fin 1) := Subsingleton.elim (α := Fin 1) _ _
      refine Fin.ext ?_
      show 16 * k.val + ((j 0).val - k0_off3 k 0) = (j 0).val
      rw [off3_zero]; omega
    have hTj := hT j
    show (fT (ix1 ⟨16 * k.val + ((j 0).val - k0_off3 k 0), _⟩)).toNat = min (fT j).toNat 1000
    rw [e]; omega
  · next hout =>
    refine hf j ?_
    by_contra hc
    refine hout fun a => ?_
    obtain rfl : a = (0 : Fin 1) := Subsingleton.elim (α := Fin 1) _ _
    rw [off3_zero]
    show 16 * k.val ≤ (j 0).val ∧ (j 0).val < 16 * k.val + 16
    omega

theorem trips_eq : k0_t1_loop.trips = 64 := by decide

/-- The block of timesteps copied into the subcore: entry j is the array's entry under j. -/
theorem tblock_apply (L : grid0.Coords) (t : S16384.Idx → BitVec 32) (j : S1024.Idx) :
    (tSl L).view.read (Elt F) t j = t ((blk L).emb j) :=
  (View.read_apply _ _).trans (cast_eq _ _)

/-- The gathered block copied out over the result's block leaves, on that block, the lookup. -/
theorem out_value (L : grid0.Coords) (t : S16384.Idx → BitVec 32) (b : S1001.Idx → Elt F .f32) (fo : S16384.Idx → Elt F .f32)
    (f : S1024.Idx → Elt F .f32)
    (hf : ∀ j : S1024.Idx, f j = b (ix1 ⟨min (t ((blk L).emb j)).toNat 1000, by omega⟩))
    (i : S16384.Idx) (hi : i ∈ (oSl L).view.set) :
    (oSl L).view.writes (Elt F) fo [⟨Rect.whole S1024, f⟩] i = Cert.Spec.take t b i := by
  obtain ⟨j, -, rfl⟩ := Finset.mem_map.mp hi
  rw [← View.write_univ_eq_writes_whole (oSl L).view fo [] f, View.writes_nil]
  refine (View.write_emb_of_mem (v := (oSl L).view) fo f (Finset.mem_univ j)).trans ?_
  rw [cast_eq]
  exact hf j

end Cert.Proof.KernelIdealMath
end
-- ==== Proof.KernelIdealTile.lean ====
/-
  One vector subcore's task of the lookup kernel, at a symbolic (SparseCore, subcore) pair: the subcore copies the whole
  table and its own block of 1024 timesteps into its memory, gathers the table at each timestep sixteen lanes at a time
  into a third buffer, and copies that buffer out to its block of the result. After the task the block of the result
  holds, entry by entry, the table at the block's timesteps.
-/
import proofs.«204885_g78434692759826_cont_9to1_m_150_15_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204885_g78434692759826_cont_9to1_m_150_15_alg».proof.Proof.Gen.KernelIdeal
import proofs.«204885_g78434692759826_cont_9to1_m_150_15_alg».proof.Proof.Gen.KernelIdeal.Skeleton
import proofs.«204885_g78434692759826_cont_9to1_m_150_15_alg».proof.Proof.Spec
import proofs.«204885_g78434692759826_cont_9to1_m_150_15_alg».proof.Proof.KernelIdealMath

noncomputable section

namespace Cert.Proof.KernelIdealTile

open Cert.KernelIdeal Cert.KernelIdeal.Gen Cert.Proof.KernelIdealMath

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

/-- The timesteps and the table (the arguments), the result, as locations of device `d`. -/
abbrev tLoc (d : Dev nD) : Loc nD τ sig := (SparseCore.T d).loc main_arg0
abbrev bLoc (d : Dev nD) : Loc nD τ sig := (SparseCore.T d).loc main_arg1
abbrev oLoc (d : Dev nD) : Loc nD τ sig := (SparseCore.T d).loc main_v0

variable [FloatOps F]

local notation "tW" => (Memref.whole Cert.KernelIdeal.main_arg0_scv : Memref Cert.KernelIdeal.sig Kind.scVector Space.hbm Cert.KernelIdeal.S16384 EltTy.i32)
local notation "bW" => (Memref.whole Cert.KernelIdeal.main_arg1_scv : Memref Cert.KernelIdeal.sig Kind.scVector Space.hbm Cert.KernelIdeal.S1001 EltTy.f32)
local notation "oW" => (Memref.whole Cert.KernelIdeal.main_v0_scv : Memref Cert.KernelIdeal.sig Kind.scVector Space.hbm Cert.KernelIdeal.S16384 EltTy.f32)
/-- A subcore's own memory: the table's copy, the block of timesteps, the gathered block. -/
local notation "sB" => (Memref.whole Cert.KernelIdeal.cc0_scratch0 : Memref Cert.KernelIdeal.sig Kind.scVector Space.vmem Cert.KernelIdeal.S1001 EltTy.f32)
local notation "sT" => (Memref.whole Cert.KernelIdeal.cc0_scratch1 : Memref Cert.KernelIdeal.sig Kind.scVector Space.vmem Cert.KernelIdeal.S1024 EltTy.i32)
local notation "sO" => (Memref.whole Cert.KernelIdeal.cc0_scratch2 : Memref Cert.KernelIdeal.sig Kind.scVector Space.vmem Cert.KernelIdeal.S1024 EltTy.f32)

/-! ## The blocks, and what the handshakes carry -/

theorem hdiv : 16 ∣ S16384.size 0 := ⟨1024, rfl⟩
/-- The sixteen blocks of 1024 consecutive entries of a 16384-entry array, and block `i` as a set of its indices. -/
abbrev part (i : Fin 16) : Rect S16384 := Rect.part (s := S16384) (a₀ := 0) hdiv i
abbrev blkSet (i : Fin 16) : Finset S16384.Idx := ((tW).view.slice (part i)).set

abbrev tPts (d : Dev nD) : sProp 𝕄 := tLoc d ↦{fullShare} m (tLoc d)
abbrev bPts (d : Dev nD) (q : PosShare TreeShare) : sProp 𝕄 := bLoc d ↦{q} m (bLoc d)
abbrev oPts (d : Dev nD) (f : Buf (Elt F) (oLoc d)) : sProp 𝕄 := oLoc d ↦{fullShare} f
abbrev tBlk (d : Dev nD) (i : Fin 16) : sProp 𝕄 := tLoc d ↦[blkSet i]{fullShare} m (tLoc d)
abbrev oBlk (d : Dev nD) (i : Fin 16) (f : Buf (Elt F) (oLoc d)) : sProp 𝕄 := oLoc d ↦[blkSet i]{fullShare} f

/-- The lookup of the launch memory's timesteps in its table: what the result ends at. -/
def G (d : Dev nD) : Buf (Elt F) (oLoc d) := Cert.Spec.take (m (tLoc d)) (m (bLoc d))

/-- The call takes the timesteps, the table and the result whole; a task takes its block of the timesteps and of the
    result and a read share of the table, and brings them back, the result's block at the lookup. -/
def P : (K (F := F)).Pay (nD := nD) (Val := Elt F) (Name := ℕ) (U := UU) where
  st := fun _ d _ => iprop(tPts m d ∗ bPts m d fullShare ∗ oPts d (m (oLoc d)))
  dn := fun _ d _ => iprop(tPts m d ∗ bPts m d fullShare ∗ oPts d (G m d))
  go := fun q d _ i => match q with
    | 0 => iprop(tBlk m d (Fin.cast nSub_zero i) ∗ bPts m d (Transfers.shareTok fullShare 16 (Fin.cast nSub_zero i)) ∗ oBlk d (Fin.cast nSub_zero i) (m (oLoc d)))
  td := fun q d _ i => match q with
    | 0 => iprop(tBlk m d (Fin.cast nSub_zero i) ∗ bPts m d (Transfers.shareTok fullShare 16 (Fin.cast nSub_zero i)) ∗ oBlk d (Fin.cast nSub_zero i) (G m d))
  x := fun _ _ => iprop(emp)

instance P_storable : (P (F := F) m).IsStorable where
  st _ d _ := by unfold P; infer_instance
  dn _ d _ := by unfold P; infer_instance
  go q d _ i := match q with
    | 0 => (inferInstance : BI.Storable (upEmb : UEmb _ 𝕄)
        iprop(tBlk m d (Fin.cast nSub_zero i) ∗ bPts m d (Transfers.shareTok fullShare 16 (Fin.cast nSub_zero i)) ∗ oBlk d (Fin.cast nSub_zero i) (m (oLoc d))))
  td q d _ i := match q with
    | 0 => (inferInstance : BI.Storable (upEmb : UEmb _ 𝕄)
        iprop(tBlk m d (Fin.cast nSub_zero i) ∗ bPts m d (Transfers.shareTok fullShare 16 (Fin.cast nSub_zero i)) ∗ oBlk d (Fin.cast nSub_zero i) (G m d)))

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)

omit [FloatOps F] in
/-- Subcore `L`'s block, as the program slices it, is block `L` of the sixteen. -/
theorem blk_eq : blk L = part (jL L) := by
  unfold blk part Rect.part Rect.block
  congr 1 <;> funext a
  · obtain rfl : a = (0 : Fin 1) := Subsingleton.elim (α := Fin 1) _ _
    rw [off1_zero]
    show 1024 * (L 1).val = (L 1).val * (16384 / 16)
    omega
  · obtain rfl : a = (0 : Fin 1) := Subsingleton.elim (α := Fin 1) _ _
    rfl

omit [FloatOps F] in
theorem set_tSl : (tSl L).view.set = blkSet (jL L) := by
  show ((tW).view.slice (blk L)).set = ((tW).view.slice (part (jL L))).set
  rw [blk_eq]
omit [FloatOps F] in
theorem set_oSl : (oSl L).view.set = blkSet (jL L) := by
  show ((oW).view.slice (blk L)).set = ((tW).view.slice (part (jL L))).set
  rw [blk_eq]; rfl

omit [FloatOps F] in
theorem pts_tSl (f : Buf (Elt F) (tLoc d)) :
    ((tSl L).view.loc (V d (cV L) (jV L)) ↦[(tSl L).view.set]{fullShare} f : sProp 𝕄) = tLoc d ↦[blkSet (jL L)]{fullShare} f := by
  rw [set_tSl]
omit [FloatOps F] in
theorem pts_oSl (f : Buf (Elt F) (oLoc d)) :
    ((oSl L).view.loc (V d (cV L) (jV L)) ↦[(oSl L).view.set]{fullShare} f : sProp 𝕄) = oLoc d ↦[blkSet (jL L)]{fullShare} f := by
  rw [set_oSl]
omit [FloatOps F] in
theorem pts_bW (q : PosShare TreeShare) (f : Buf (Elt F) (bLoc d)) :
    ((bW).view.loc (V d (cV L) (jV L)) ↦{q} f : sProp 𝕄) = bLoc d ↦{q} f := rfl
omit [FloatOps F] in
theorem pts_sB (f : Buf (Elt F) ((V d (cV L) (jV L)).loc cc0_scratch0)) :
    ((sB).view.loc (V d (cV L) (jV L)) ↦{fullShare} f : sProp 𝕄) = (V d (cV L) (jV L)).loc cc0_scratch0 ↦{fullShare} f := rfl
omit [FloatOps F] in
theorem pts_sT (f : Buf (Elt F) ((V d (cV L) (jV L)).loc cc0_scratch1)) :
    ((sT).view.loc (V d (cV L) (jV L)) ↦{fullShare} f : sProp 𝕄) = (V d (cV L) (jV L)).loc cc0_scratch1 ↦{fullShare} f := rfl
omit [FloatOps F] in
theorem pts_sO (f : Buf (Elt F) ((V d (cV L) (jV L)).loc cc0_scratch2)) :
    ((sO).view.loc (V d (cV L) (jV L)) ↦{fullShare} f : sProp 𝕄) = (V d (cV L) (jV L)).loc cc0_scratch2 ↦{fullShare} f := rfl
omit [FloatOps F] in
theorem pts_sB_access (f : Buf (Elt F) ((V d (cV L) (jV L)).loc cc0_scratch0)) :
    ((sB).view.loc (V d (cV L) (jV L)) ↦{fullShare} f : sProp 𝕄) = (((sB).access (.whole S1001)).loc (V d (cV L) (jV L)) ↦{fullShare} f) := rfl

/-- The subcore's three transfer semaphores. -/
abbrev c3cell (d : Dev nD) (c : Fin τ.nSC) (i : Fin τ.nSub) : GSem nD τ sig := (V d c i, .dma cc0_scratch3.sem)
abbrev c4cell (d : Dev nD) (c : Fin τ.nSC) (i : Fin τ.nSub) : GSem nD τ sig := (V d c i, .dma cc0_scratch4.sem)
abbrev c5cell (d : Dev nD) (c : Fin τ.nSC) (i : Fin τ.nSub) : GSem nD τ sig := (V d c i, .dma cc0_scoped0.sem)

omit [FloatOps F] in
theorem ownSems0_V :
    (ownSems0 (V d (cV L) (jV L)) : sProp 𝕄)
      = iprop(semVal (c3cell d (cV L) (jV L)) 0 ∗ semVal (c4cell d (cV L) (jV L)) 0 ∗ semVal (c5cell d (cV L) (jV L)) 0
          ∗ bigSep ((((ownCells (V d (cV L) (jV L))).erase (c3cell d (cV L) (jV L))).erase (c4cell d (cV L) (jV L))).erase (c5cell d (cV L) (jV L)))
              fun g => semVal g 0) := by
  unfold SparseCore.Cfg.ownSems0
  rw [SparseCore.bigSep_erase' ((mem_ownCells (g := c3cell d (cV L) (jV L))).mpr ⟨rfl, by
      show (SemLoc.dma cc0_scratch3.sem : SemLoc sig).isScoped .scVector = true; decide⟩),
    SparseCore.bigSep_erase' (Finset.mem_erase.mpr ⟨by simp [c3cell, c4cell]; decide, (mem_ownCells (g := c4cell d (cV L) (jV L))).mpr ⟨rfl, by
      show (SemLoc.dma cc0_scratch4.sem : SemLoc sig).isScoped .scVector = true; decide⟩⟩),
    SparseCore.bigSep_erase' (Finset.mem_erase.mpr ⟨by simp [c4cell, c5cell]; decide, Finset.mem_erase.mpr ⟨by simp [c3cell, c5cell]; decide,
      (mem_ownCells (g := c5cell d (cV L) (jV L))).mpr ⟨rfl, by show (SemLoc.dma cc0_scoped0.sem : SemLoc sig).isScoped .scVector = true; decide⟩⟩⟩)]

omit [FloatOps F] in
/-- The three buffers of the subcore's own memory are among its own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- The gather loop's invariant: the table's copy and the block of timesteps as fetched, and after `k` trips the first
    16·k entries of the gathered block are the table at the block's timesteps. -/
def inv (fB : Buf (Elt F) ((V d (cV L) (jV L)).loc cc0_scratch0)) (fT : Buf (Elt F) ((V d (cV L) (jV L)).loc cc0_scratch1)) (k : Nat) (_ : BitVec 32) : sProp 𝕄 :=
  iprop(((sB).view.loc (V d (cV L) (jV L)) ↦{fullShare} fB) ∗ ((sT).view.loc (V d (cV L) (jV L)) ↦{fullShare} fT)
    ∗ ∃ f : Buf (Elt F) ((V d (cV L) (jV L)).loc cc0_scratch2), ⌜∀ j : S1024.Idx, (j 0).val < 16 * k →
        (f : S1024.Idx → Elt F .f32) j = (fB : S1001.Idx → Elt F .f32) (ix1 ⟨min ((fT : S1024.Idx → BitVec 32) j).toNat 1000, by omega⟩)⌝
      ∗ ((sO).view.loc (V d (cV L) (jV L)) ↦{fullShare} f))

/-- The task on vector subcore `L` of device `d`: the two fetches and their waits, the gather loop, the copy out and its
    wait; the result's block ends at the lookup. -/
theorem tile_body (hF : (K (F := F)).Facts) (hr : Cert.Spec.InRange (m (tLoc d))) (q : PosShare TreeShare)
    (O : CellTallies nD τ sig (HIx 1)) (W : Waits sig (HIx 1)) (hO : ∀ g, O g none = 0) :
    (iprop(levAts (K (F := F)).L (K (F := F)).lev ∗ emp
        ∗ (tBlk m d (jL L) ∗ bPts m d q ∗ oBlk d (jL L) (m (oLoc d)))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__gather_body L tW (Memref.isWhole_whole _) bW (Memref.isWhole_whole _) oW (Memref.isWhole_whole _)
            sB (Memref.isWhole_whole _) sT (Memref.isWhole_whole _) sO (Memref.isWhole_whole _) cc0_scratch3 cc0_scratch4 cc0_scoped0)
          fun _ => iprop((tBlk m d (jL L) ∗ bPts m d q ∗ oBlk d (jL L) (G m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0__gather_body_eq_skeleton]; unfold cc0__gather_body_skel
  rw [(K (F := F)).scopedBufs_V hF d (cV L) (jV L), SparseCore.Cfg.scopedSems0_V (Val := Elt F) d (cV L) (jV L), ownSems0_V, ownBufs_V]
  iintro ⟨#Hlv, -, ⟨Ht, Hb, Ho⟩, ⟨⟨%f0, H0⟩, ⟨%f1, H1⟩, ⟨%f2, H2⟩, Hbufs⟩, ⟨Hs3, Hs4, Hs5, Hsems⟩, HO⟩
  ihave Hmw := ((K (F := F)).mayWaits_none (thr := V d (cV L) (jV L)) hO) $$ Hlv
  ihave Ht := (Entails.of_eq (pts_tSl (F := F) d L _).symm) $$ Ht
  ihave Hb := (Entails.of_eq (pts_bW (F := F) d L q _).symm) $$ Hb
  ihave Ho := (Entails.of_eq (pts_oSl (F := F) d L _).symm) $$ Ho
  ihave H0 := (Entails.of_eq (pts_sB (F := F) d L _).symm) $$ H0
  ihave H1 := (Entails.of_eq (pts_sT (F := F) d L _).symm) $$ H1
  ihave H2 := (Entails.of_eq (pts_sO (F := F) d L _).symm) $$ H2
  -- the two fetches and their waits
  sl_exec
  generalize hB : View.write (Elt F) (Memref.whole cc0_scratch0).view f0 _ Finset.univ = fB
  generalize hT : View.write (Elt F) (Memref.whole cc0_scratch1).view f1 _ Finset.univ = fT
  have hB' : (fB : S1001.Idx → Elt F .f32) = m (bLoc d) := hB.symm.trans (View.write_whole_univ _ _ _)
  have hT' : (fT : S1024.Idx → BitVec 32) = (tSl L).view.read (Elt F) (m (tLoc d)) := hT.symm.trans (View.write_whole_univ _ _ _)
  have hT1 : ∀ j : S1024.Idx, ((fT : S1024.Idx → BitVec 32) j).toNat < 1001 := fun j => by
    rw [hT', tblock_apply]; exact Nat.lt_of_le_of_lt (hr.toNat_le _) (by norm_num)
  -- the gather loop
  sl_for (inv d L fB fT) $$ [H0 H1 H2]
  case region =>
    intro k _
    unfold inv
    iintro ⟨H0, H1, %f, %hf, H2⟩
    sl_exec
    rw [wp_assume_of _ _ _ _ (chk_of_range (F := F) fT hT1 k)]
    ihave H0' := (Entails.of_eq (pts_sB_access (F := F) d L _)) $$ H0
    iapply (SparseCore.wp_vectorLoadIdx 𝒱₀ (V d (cV L) (jV L)) none Set.univ (base := sB) (S := Finset.univ) (q := fullShare) (Finset.subset_univ _)) $$ H0'; iintro H0'
    sl_exec
    sl_step
    isplitl [H0']; · iapply (Entails.of_eq (pts_sB_access (F := F) d L _).symm); iexact H0'
    isplitl [H1]; · iexact H1
    iexists _; isplitr
    rotate_left
    · iexact H2
    · ipureintro; exact fun j hj => trip_value (F := F) fB fT f k hT1 hf _ j hj
  · unfold inv
    isplitl [H0]; · iexact H0
    isplitl [H1]; · iexact H1
    iexists f2; isplitr
    · ipureintro; intro j hj; omega
    · iexact H2
  iintro %_ HI
  unfold inv
  icases HI with ⟨H0, H1, %f, %hf, H2⟩
  -- the copy out and its wait
  sl_exec
  sl_step
  have hout : ∀ i ∈ (oSl L).view.set, (oSl L).view.writes (Elt F) (m (oLoc d)) [⟨Rect.whole S1024, (f : S1024.Idx → Elt F .f32)⟩] i = G m d i :=
    fun i hi => out_value (F := F) L (m (tLoc d)) (m (bLoc d)) (m (oLoc d)) f (fun j => by
      have h1 := hf j (by
        have e : Scf.trips k0_t1_loop.lb k0_t1_loop.ub k0_t1_loop.st = 64 := trips_eq
        have : (j 0).val < 1024 := (j 0).isLt
        omega)
      rw [h1, hB']; congr 3; rw [hT', tblock_apply]) i hi
  ihave Ho := (Entails.of_eq (pointsTo_congr hout)) $$ Ho
  isplitl [Ht Hb Ho]
  · isplitl [Ht]; · iapply (Entails.of_eq (pts_tSl (F := F) d L _)); iexact Ht
    isplitl [Hb]; · iexact Hb
    iapply (Entails.of_eq (pts_oSl (F := F) d L _)); iexact Ho
  isplitl [H0 H1 H2 Hbufs]
  · isplitl [H0]; · iexists _; iexact H0
    isplitl [H1]; · iexists _; iexact H1
    isplitl [H2]; · iexists _; iexact H2
    iexact Hbufs
  isplitl [Hs3 Hs4 Hs5 Hsems]
  · isplitl [Hs3]; · iexact Hs3
    isplitl [Hs4]; · iexact Hs4
    isplitl [Hs5]; · iexact Hs5
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp

end Tile

/-! ## The launch theorem's obligation for the task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_body (coordsV c s)
          tW (Memref.isWhole_whole _) bW (Memref.isWhole_whole _) oW (Memref.isWhole_whole _)
          sB (Memref.isWhole_whole _) sT (Memref.isWhole_whole _) sO (Memref.isWhole_whole _) cc0_scratch3 cc0_scratch4 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hr : ∀ d : Dev nD, Cert.Spec.InRange (m (tLoc d))) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF (hr d) _ O W hO).trans (wp_mono frame _ _ fun _ => obl_post)

end Cert.Proof.KernelIdealTile

end
-- ==== Proof.KernelIdealLaunch.lean ====
/-
  The lookup kernel's run: the sixteen tasks' blocks tile the timesteps and the result, the table goes out as sixteen read
  shares and comes back whole, and the program's run ends with the result at the lookup of the launch memory's timesteps
  in its table, the two arguments unchanged.
-/
import proofs.«204885_g78434692759826_cont_9to1_m_150_15_alg».proof.Proof.KernelIdealTile

noncomputable section

namespace Cert.Proof.KernelIdealLaunch

open Cert.KernelIdeal Cert.KernelIdeal.Gen Cert.Proof.KernelIdealMath Cert.Proof.KernelIdealTile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The sixteen blocks tile the array; the table's read shares -/

omit [FloatOps F] in
theorem blkSet_eq (i : Fin 16) : blkSet i = (part i).set := by
  show ((View.whole (main_arg0_scv : Ref sig .scVector)).slice (part i)).set = _
  rw [View.set_slice]; exact Finset.map_refl
omit [FloatOps F] in
theorem blocks_disjoint : ∀ i ∈ (Finset.univ : Finset (Fin 16)), ∀ j ∈ (Finset.univ : Finset (Fin 16)), i ≠ j → Disjoint (blkSet i) (blkSet j) :=
  fun i _ j _ h => by rw [blkSet_eq, blkSet_eq]; exact Rect.part_disjoint hdiv h
omit [FloatOps F] in
theorem blocks_cover : (Finset.univ : Finset (Fin 16)).biUnion blkSet = Finset.univ :=
  (Finset.biUnion_congr rfl fun i _ => blkSet_eq i).trans (Rect.biUnion_part hdiv)

omit [FloatOps F] in
theorem tPts_blocks (d : Dev nD) (f : Buf (Elt F) (tLoc d)) :
    (tLoc d ↦{fullShare} f : sProp 𝕄) = bigSep Finset.univ fun i : Fin 16 => tLoc d ↦[blkSet i]{fullShare} f := by
  rw [← pointsTo_biUnion Finset.univ (ℓ := tLoc d) blkSet blocks_disjoint, blocks_cover]; try rfl
omit [FloatOps F] in
theorem oPts_blocks (d : Dev nD) (f : Buf (Elt F) (oLoc d)) :
    (oLoc d ↦{fullShare} f : sProp 𝕄) = bigSep Finset.univ fun i : Fin 16 => oLoc d ↦[blkSet i]{fullShare} f := by
  rw [← pointsTo_biUnion Finset.univ (ℓ := oLoc d) blkSet blocks_disjoint, blocks_cover]; try rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show iprop(tPts m d ∗ bPts m d fullShare ∗ oPts d (m (oLoc d))) ⊢ |={Set.univ}=> iprop(
      (bigSep Finset.univ fun i : Fin ((K (F := F)).nSub 0) =>
        iprop(tBlk m d (Fin.cast nSub_zero i) ∗ bPts m d (Transfers.shareTok fullShare 16 (Fin.cast nSub_zero i)) ∗ oBlk d (Fin.cast nSub_zero i) (m (oLoc d))))
      ∗ ((bigSep Finset.univ fun i : Fin ((K (F := F)).nSub 0) =>
          iprop(tBlk m d (Fin.cast nSub_zero i) ∗ bPts m d (Transfers.shareTok fullShare 16 (Fin.cast nSub_zero i)) ∗ oBlk d (Fin.cast nSub_zero i) (G m d)))
          -∗ iprop(tPts m d ∗ bPts m d fullShare ∗ oPts d (G m d))))
  rw [bigSep_tasks (F := F) (fun i => iprop(tBlk m d i ∗ bPts m d (Transfers.shareTok fullShare 16 i) ∗ oBlk d i (m (oLoc d)))),
    bigSep_tasks (F := F) (fun i => iprop(tBlk m d i ∗ bPts m d (Transfers.shareTok fullShare 16 i) ∗ oBlk d i (G m d))), bigSep_sep', bigSep_sep', bigSep_sep', bigSep_sep']
  unfold tPts oPts tBlk oBlk
  rw [tPts_blocks, oPts_blocks, oPts_blocks]
  iintro ⟨Ht, Hb, Ho⟩
  ihave Hb' := (Transfers.pointsTo_toks_split (ℓ := bLoc d) (S := Finset.univ) (f := m (bLoc d)) fullShare 16) $$ Hb
  icases Hb' with ⟨Hrest, Htoks⟩
  imodintro
  isplitl [Ht Htoks Ho]
  · isplitl [Ht]; · iexact Ht
    isplitl [Htoks]; · iexact Htoks
    iexact Ho
  iintro ⟨Ht, Htoks, Ho⟩
  isplitl [Ht]; · iexact Ht
  isplitl [Hrest Htoks]
  · iapply (Transfers.pointsTo_toks_join (ℓ := bLoc d) (S := Finset.univ) (f := m (bLoc d)) fullShare 16)
    isplitl [Hrest]; · iexact Hrest
    iexact Htoks
  iexact Ho

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((tLoc d ↦{fullShare} W main_arg0) ∗ (bLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m).st 0 d c) = iprop(tPts m d ∗ bPts m d fullShare ∗ oPts d (m (oLoc d))) :=
  bigSep_univ_of_subsingleton (0 : Fin 1)
theorem dn0_eq (d : Dev nD) : (bigSep Finset.univ fun c : Fin ((K (F := F)).nCore 0) => (P m).dn 0 d c) = iprop(tPts m d ∗ bPts m d fullShare ∗ oPts d (G m d)) :=
  bigSep_univ_of_subsingleton (0 : Fin 1)

/-- What @main leaves the claim: the arguments at their launch contents, the result at the lookup. -/
abbrev FIN (d : Dev nD) : sProp 𝕄 := iprop(tPts m d ∗ bPts m d fullShare ∗ oPts d (G m d))

/-- @main on device `d`'s TensorCore: the one call, from the three arrays whole, and back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ht, Hbt, Ho⟩, -, -⟩, -⟩
  iapply ((K (F := F)).wp_run (D (F := F)) 𝒱 (EH := EH) (P := P m) κ d 0) $$ [Hst Ht Hbt Ho]
  isplitr; · iexact Hctx
  isplitl [Hst]; · iexact Hst
  isplitl [Ht Hbt Ho]
  · rw [st0_eq]
    isplitl [Ht]; · iexact Ht
    isplitl [Hbt]; · iexact Hbt
    iexact Ho
  iintro ⟨Hst, Hdn⟩
  ihave Hdn' := (Entails.of_eq (dn0_eq m d)) $$ Hdn
  imodintro
  isplitl [Hst]; · iexact Hst
  iexact Hdn'

def fq (d : Dev nD) (s' : Phys nD τ sig (Elt F)) : Prop :=
  s'.mem.mem (oLoc d) = G m d ∧ s'.mem.mem (tLoc d) = m (tLoc d) ∧ s'.mem.mem (bLoc d) = m (bLoc d)

theorem hfin (d : Dev nD) (s' : Phys nD τ sig (Elt F)) : iprop(FIN m d ∗ SI s') ⊢ (⌜fq m d s'⌝ : sProp 𝕄) := by
  iintro ⟨⟨Ht, Hb, Ho⟩, HSI⟩
  ihave H := (persistent_entails_right (SI_pointsTo_agree (st := s') (ℓ := tLoc d) (I := Finset.univ) (q := fullShare) (f := m (tLoc d)))) $$ [HSI Ht]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := oLoc d) (I := Finset.univ) (q := fullShare) (f := G m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = G m c ∧ r.2.mem (tLoc c) = m (tLoc c) ∧ r.2.mem (bLoc c) = m (bLoc c)

/-- Every weakly fair execution of the device's threads terminates, nothing faulting, with the result at the lookup of
    the launch memory's timesteps in its table and the two arguments unchanged. -/
theorem run_main [∀ e, Nonempty (Elt F e)] (hr : ∀ d : Dev nD, Cert.Spec.InRange (m (tLoc d))) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hr)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KernelIdealLaunch

end
-- ==== Proof.LibVecGather.lean ====
/-
  A host gather of the entries of a vector named by an index list, read at an index: operand of N entries, an E×1
  integer array of start indices, result of E entries. Entry e of the result is the operand's entry r, r the e-th
  index read as a signed integer and clamped into [0, N − 1].
-/
import Idealize.ShloMosaic.Lib.ValueIdx

noncomputable section

namespace Cert.KernelIdeal.HostValue

open Idealize.ShloMosaic Idealize.ShloMosaic.ValueIdx

variable {N E w : ℕ}

/-- "Take entries": operand of N entries, start indices E×1 (one entry number each), result of E entries. -/
abbrev vecGather (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather at e is the operand at the e-th index, read signed and clamped. -/
theorem vecGather_apply {α : Type} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecGather N E wf).start (ix1 e) idx 0 + (vecGather N E wf).batchCoord (ix1 e) 0
      + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.KernelIdeal.HostValue

end
-- ==== Proof.LibTRef.lean ====
/-
  Contents moved to a typed reference's buffer type and back are the contents: the two transports along the reference's
  type equation cancel, whatever the reference.
-/
import Idealize.ShloMosaic.Lib.StableHlo

noncomputable section

namespace Cert.LibTRef

open Idealize.ShloMosaic Idealize.ShloMosaic.StableHlo

variable {sig : RefSig} {Val : EltTy → Type} {T : BufTy}

/-- From the value's type to the buffer's and back. -/
theorem ofBuf_toBuf (x : TRef sig T) (v : T.Contents Val) : x.ofBuf (x.toBuf v) = v := by
  obtain ⟨r, h, h2, h3⟩ := x
  subst h
  rfl

/-- From the buffer's type to the value's and back. -/
theorem toBuf_ofBuf (x : TRef sig T) (v : x.ref.ty.Contents Val) : x.toBuf (x.ofBuf v) = v := by
  obtain ⟨r, h, h2, h3⟩ := x
  subst h
  rfl

end Cert.LibTRef

end
-- ==== Proof.RefRun.lean ====
/-
  The reference program's run, written out, and what it computes under the input domain.

  The reference's @main is one call of the table-lookup function, whose body (with the select function it calls in
  turn) is a straight line of 22 host operations over buffers of their own. Listed in order they are @main itself, so
  every weakly fair execution terminates with each buffer at the fold of the operations' results over the launch
  contents. At the result buffer that fold is one pure term of the two arguments, `out t b`: a negative timestep has
  the table's length added, the timesteps become a column of start indices, a mask says which of them lie between 0
  and 1000, the table is gathered at the start indices, and the mask selects between the gathered entry and a fill
  constant.

  Under the input domain (every timestep between 0 and 999) nothing of that machinery acts: no timestep is negative,
  so the wrap leaves it; every start index is inside the table, so the mask is 1 everywhere and the select takes the
  gathered entry; and the gather's clamp of the signed index into [0, 1000] is the cap of the unsigned one. So
  `out t b` is the lookup `Cert.Spec.take t b`, entry by entry.
-/
import proofs.«204885_g78434692759826_cont_9to1_m_150_15_alg».proof.Defs
import proofs.«204885_g78434692759826_cont_9to1_m_150_15_alg».proof.Proof.Gen.ReferenceIdeal
import proofs.«204885_g78434692759826_cont_9to1_m_150_15_alg».proof.Proof.Spec
import proofs.«204885_g78434692759826_cont_9to1_m_150_15_alg».proof.Proof.LibVecGather
import proofs.«204885_g78434692759826_cont_9to1_m_150_15_alg».proof.Proof.LibTRef
import Idealize.ShloMosaic.Lib.StableHlo.Run
import Idealize.ShloMosaic.Lib.ValueIdx
import Idealize.ShloMosaic.Lib.Affine
import Idealize.ShloMosaic.Lib.Pipeline.Value
import Idealize.ShloMosaic.PureOps.Reduce

noncomputable section

namespace Cert.RefRun

open Cert.ReferenceIdeal Cert.ReferenceIdeal.Gen Idealize.ShloMosaic Idealize.ShloMosaic.TcCoe Idealize.SL.Sem
  Idealize.ShloMosaic.StableHlo Idealize.ShloMosaic.ValueIdx

variable {F : FTy → Type} [FloatOps F]

/-! ## The operations' composed term -/

/-- The timesteps after the wrap: where one is negative the table's length, 1001, is added to it. -/
def wrap (t : IVec S16384 32) : IVec S16384 32 :=
  select (cmpi .slt t (broadcastInDim S16384 ![] bcast_S_S16384 (constantI S_ 32 0#32)))
    (addi t (broadcastInDim S16384 ![] bcast_S_S16384 (constantI S_ 32 1001#32))) t

/-- The wrapped timesteps as a column: one start index per entry of the result. -/
def starts (t : IVec S16384 32) : IVec S16384x1 32 :=
  broadcastInDim S16384x1 ![0] bcast_S16384_S16384x1_0 (wrap t)

/-- Which entries have their start index inside the table: 0 ≤ index and index ≤ 1000, the two conditions' "and"
    reduced, by "and" from 1, over the column's unit axis. -/
def inside (t : IVec S16384 32) : IVec S16384 1 :=
  Host.reduce IntOp.andi
    (andi (cmpi .sge (starts t) (broadcastInDim S16384x1 ![] bcast_S_S16384x1 (constantI S_ 32 0#32)))
      (cmpi .sle (starts t) (broadcastInDim S16384x1 ![0, 1] bcast_S1x1_S16384x1_0_1
        (broadcastInDim S1x1 ![1] bcast_S1_S1x1_1 (constantI S1 32 1000#32)))))
    (constantI S_ 1 1#1) reducesTo_S16384x1_S16384_d1 h_S_

/-- The result: the gathered entry where the start index is inside the table, the fill constant elsewhere. -/
def out (t : IVec S16384 32) (b : FVec F S1001 .f32) : FVec F S16384 .f32 :=
  select (inside t) (Host.gather gather_S1001_S16384x1_S16384_n_0_n_n_0_1_1 b (starts t))
    (broadcastInDim S16384 ![] bcast_S_S16384 (constant S_ .f32 0x7FC00000#32))

/-! ## @main as a list of operations -/

/-- @main's 22 operations, in order: the lookup function's body over the buffers of @main's one call of it, the
    select function's one operation in its place (the seventh) over the buffers of the call nested there. The lookup
    function takes the table first: its first argument is @main's second. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 1001#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 1000#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S1001_S16384x1_S16384_n_0_n_n_0_1_1 x i),
    TRef.nullary main_call0.cst (constant S_ .f32 0x7FC00000#32),
    TRef.unary main_call0.cst main_call0.v14 (broadcastInDim S16384 ![] bcast_S_S16384),
    TRef.ternary main_call0.v12 main_call0.v13 main_call0.v14 main_call0.v15 select ]

set_option maxRecDepth 1024 in
/-- @main is that straight line: with the two functions' bodies unfolded at their calls both sides are one chain of
    steps once the sequencing is re-associated. -/
theorem main_eq (c : Dev nD) : main (F := F) c = seq ops := by
  simp only [main, fn_take.body, fn_where.body, seq, bind_assoc, pure_bind]

/-! ## The fold at the result and at the arguments -/

attribute [local irreducible] Host.reduce Host.gather in
/-- The fold at the result buffer is `out` of the arguments' contents: each operation's result at its own buffer is
    its function of its operands' contents and at any other buffer what was there; a value moved to its buffer's
    type and back is the value; what is left is the same term, the transports at the arguments and at the result
    the identity at these literal references. The reduction and the gather stay folded meanwhile (the equation
    never looks inside them). -/
theorem v0_eq (V : Valuation τ sig (Elt F)) :
    after ops V (main_v0 : DevRef τ sig) = out (V (main_arg0 : DevRef τ sig)) (V (main_arg1 : DevRef τ sig)) := by
  after_results
  simp only [Cert.LibTRef.ofBuf_toBuf, Cert.LibTRef.toBuf_ofBuf]
  rfl

/-- No operation writes the timesteps … -/
theorem arg0_eq (V : Valuation τ sig (Elt F)) :
    after ops V (main_arg0 : DevRef τ sig) = V (main_arg0 : DevRef τ sig) := by
  simp only [after_cons, after_nil]
  rfl

/-- … nor the table. -/
theorem arg1_eq (V : Valuation τ sig (Elt F)) :
    after ops V (main_arg1 : DevRef τ sig) = V (main_arg1 : DevRef τ sig) := by
  simp only [after_cons, after_nil]
  rfl

/-! ## The run -/

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..⟩

/-- For any float values, from any memory with zero counters: every weakly fair execution of @main terminates, and
    every final state has each buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The value under the input domain -/

/-- A left fold by "and" from 1 over words that are all 1 is 1. -/
theorem foldl_andi_ones {ι : Type} (x : ι → BitVec 1) :
    ∀ l : List ι, (∀ i ∈ l, x i = 1#1) → l.foldl (fun r i => IntOp.andi r (x i)) 1#1 = 1#1
  | [], _ => rfl
  | a :: l, h => by
    rw [List.foldl_cons, h a List.mem_cons_self]
    exact foldl_andi_ones x l fun i hi => h i (List.mem_cons_of_mem _ hi)

section Value

variable {t : IVec S16384 32} (ht : Cert.Spec.InRange t)
include ht

/-- No timestep is negative, so the wrap leaves each as it is. -/
theorem wrap_apply (i : S16384.Idx) : wrap t i = t i := by
  have hc : IntOp.cmpi .slt (t i) 0#32 = 0#1 := eq_zero_of_ne_one fun h => by
    have h1 := IntOp.cmpi_slt.1 h
    have z : (0#32 : BitVec 32).toInt = 0 := by decide
    have := (ht i).1
    omega
  show Scalar.select (IntOp.cmpi .slt (t i) 0#32) (IntOp.addi (t i) 1001#32) (t i) = t i
  rw [hc, select_zero]

/-- The column of start indices at row a is timestep a. -/
theorem starts_apply (i : S16384x1.Idx) : starts t i = t (ix1 (i 0)) := by
  unfold starts
  rw [broadcastInDim_apply ![0] bcast_S16384_S16384x1_0 (wrap t) i (ix1 (i 0)) (fun a => by
    match a with
    | ⟨0, _⟩ => rfl)]
  exact wrap_apply ht _

/-- Every start index lies between 0 and 1000, so the mask is 1 at every entry. -/
theorem inside_apply (e : S16384.Idx) : inside t e = 1#1 := by
  have hall : ∀ i : S16384x1.Idx,
      andi (cmpi .sge (starts t) (broadcastInDim S16384x1 ![] bcast_S_S16384x1 (constantI S_ 32 0#32)))
        (cmpi .sle (starts t) (broadcastInDim S16384x1 ![0, 1] bcast_S1x1_S16384x1_0_1
          (broadcastInDim S1x1 ![1] bcast_S1_S1x1_1 (constantI S1 32 1000#32)))) i = 1#1 := by
    intro i
    show IntOp.andi (IntOp.cmpi .sge (starts t i) 0#32) (IntOp.cmpi .sle (starts t i) 1000#32) = 1#1
    rw [starts_apply ht i]
    have z : (0#32 : BitVec 32).toInt = 0 := by decide
    have k : (1000#32 : BitVec 32).toInt = 1000 := by decide
    have := ht (ix1 (i 0))
    exact IntOp.andi_eq_one.2 ⟨IntOp.cmpi_sge.2 (by omega), IntOp.cmpi_sle.2 (by omega)⟩
  unfold inside
  rw [Host.reduce_eq_foldl]
  exact foldl_andi_ones _ _ fun i _ => hall i

/-- Under the input domain the reference's term is the lookup. -/
theorem out_eq_take (b : FVec F S1001 .f32) : out t b = Cert.Spec.take t b := by
  funext e
  obtain ⟨a, rfl⟩ : ∃ a, e = ix1 a := ⟨e 0, eq_ix1 e⟩
  have hg : gather_S1001_S16384x1_S16384_n_0_n_n_0_1_1
      = Cert.KernelIdeal.HostValue.vecGather 1001 16384 gather_S1001_S16384x1_S16384_n_0_n_n_0_1_1_wf := rfl
  unfold out
  rw [select_apply, inside_apply ht, select_one, hg, Cert.KernelIdeal.HostValue.vecGather_apply (by decide)]
  unfold Cert.Spec.take
  refine congrArg b (congrArg ix1 (Fin.ext ?_))
  show min (starts t (ix2 a (0 : Fin 1))).toInt.toNat (1001 - 1) = min (t (ix1 a)).toNat 1000
  rw [starts_apply ht, ht.toInt_eq, Int.toNat_natCast]

end Value

/-! ## The reference's run, at the ideal values, under the input domain -/

/-- From any memory with zero counters whose timesteps lie in the input domain: every weakly fair execution of the
    reference's @main terminates with the result buffer holding the lookup of the table at the timesteps, and the
    two arguments unchanged. -/
theorem run (m' : (ℓ : Loc Cert.ReferenceIdeal.nD Cert.ReferenceIdeal.τ Cert.ReferenceIdeal.sig) → Buf (Elt Ideal) ℓ) (g' : Dev Cert.ReferenceIdeal.nD → PrngReg)
    (hr : ∀ c : Dev Cert.ReferenceIdeal.nD, Cert.Spec.InRange (m' ((c.tc : Thread Cert.ReferenceIdeal.nD Cert.ReferenceIdeal.τ).loc Cert.ReferenceIdeal.main_arg0))) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread _ _).loc Cert.ReferenceIdeal.main_v0) = Cert.Spec.take (m' ((c.tc : Thread _ _).loc Cert.ReferenceIdeal.main_arg0)) (m' ((c.tc : Thread _ _).loc Cert.ReferenceIdeal.main_arg1))
        ∧ r.2.mem ((c.tc : Thread _ _).loc Cert.ReferenceIdeal.main_arg0) = m' ((c.tc : Thread _ _).loc Cert.ReferenceIdeal.main_arg0)
        ∧ r.2.mem ((c.tc : Thread _ _).loc Cert.ReferenceIdeal.main_arg1) = m' ((c.tc : Thread _ _).loc Cert.ReferenceIdeal.main_arg1)) :=
  (θ_run defs _ _).mono (fun _ h c =>
      ⟨(h c main_v0).trans ((v0_eq (launchContents m' c)).trans (out_eq_take (hr c) _)),
        (h c main_arg0).trans (arg0_eq (launchContents m' c)),
        (h c main_arg1).trans (arg1_eq (launchContents m' c))⟩)
    (run_fold m' g')

end Cert.RefRun

end
-- ==== Proof.lean ====
/-
  The certificate of the lookup kernel against its reference: both compute, entry by entry, the table at the timestep.

  The kernel runs on sixteen vector subcores at once; each copies the whole table and its own block of 1024 timesteps
  into its memory, gathers the table at those timesteps sixteen lanes at a time, and copies the gathered block out to its
  block of the result. The blocks tile the result, so the result ends at the lookup of all 16384 timesteps. The
  reference is a host gather guarded against out-of-range indices; under the input domain (every timestep between 0 and
  999, the table holding 1001 entries) no guard acts and it is the same lookup. No arithmetic is done on the table's
  entries, so the two results are equal as extended reals with nothing asked of the table.
-/
import proofs.«204885_g78434692759826_cont_9to1_m_150_15_alg».proof.Defs
import proofs.«204885_g78434692759826_cont_9to1_m_150_15_alg».proof.Proof.Gen.Kernel
import proofs.«204885_g78434692759826_cont_9to1_m_150_15_alg».proof.Proof.Gen.Kernel.Skeleton
import proofs.«204885_g78434692759826_cont_9to1_m_150_15_alg».proof.Proof.Gen.KernelIdeal
import proofs.«204885_g78434692759826_cont_9to1_m_150_15_alg».proof.Proof.Gen.KernelIdeal.Skeleton
import proofs.«204885_g78434692759826_cont_9to1_m_150_15_alg».proof.Proof.Gen.ReferenceIdeal
import proofs.«204885_g78434692759826_cont_9to1_m_150_15_alg».proof.Proof.Gen.Pre_input_domain
import proofs.«204885_g78434692759826_cont_9to1_m_150_15_alg».proof.Proof.Spec
import proofs.«204885_g78434692759826_cont_9to1_m_150_15_alg».proof.Proof.KernelLaunch
import proofs.«204885_g78434692759826_cont_9to1_m_150_15_alg».proof.Proof.KernelIdealLaunch
import proofs.«204885_g78434692759826_cont_9to1_m_150_15_alg».proof.Proof.RefRun
import Idealize.ShloMosaic.Adequacy
import Idealize.ShloMosaic.Init

noncomputable section

namespace Cert.Proof

open Idealize.ShloMosaic Idealize.SL.Sem

/-- The kernel as printed runs to the end, nothing faulting, its arguments unchanged: its run with the result dropped. -/
theorem frame_kernel : Cert.frame_Kernel := fun m ρ hpre =>
  (θ_run Cert.Kernel.defs _ _).mono (fun _ h c => (h c).2)
    (Cert.Proof.KernelLaunch.run_main (F := Bits) m ρ (fun d => Cert.Spec.inRange_of_pre _ _ (hpre d)))

/-- The same for the idealized kernel. -/
theorem frame_kernelIdeal : Cert.frame_KernelIdeal := fun m ρ hpre =>
  (θ_run Cert.KernelIdeal.defs _ _).mono (fun _ h c => (h c).2)
    (Cert.Proof.KernelIdealLaunch.run_main (F := Ideal) m ρ (fun d => Cert.Spec.inRange_of_pre _ _ (hpre d)))

/-- The reference runs to the end with its arguments unchanged: its run with the result dropped. -/
theorem frame_reference : Cert.frame_ReferenceIdeal := fun m ρ hpre =>
  (θ_run Cert.ReferenceIdeal.defs _ _).mono (fun _ h c => (h c).2)
    (Cert.RefRun.run m ρ (fun c => Cert.Spec.inRange_of_pre _ _ (hpre c)))

/-- The ideal pass rewrote nothing. -/
theorem preserves : Cert.preserves_Kernel_KernelIdeal := trivial

/-- From memories agreeing on the arguments both programs end with the result at the lookup of the timesteps in the
    table: the kernel's run names it of its own memory, the reference's of its own, and the two memories agree. -/
theorem algebraic : Cert.algebraic_KernelIdeal_ReferenceIdeal := fun m g m' g' hpre hagree =>
  ⟨fun c => Cert.Proof.KernelIdealTile.G m c,
    (θ_run Cert.KernelIdeal.defs _ _).mono (fun _ h c => h c)
      (Cert.Proof.KernelIdealLaunch.run_main (F := Ideal) m g (fun d => Cert.Spec.inRange_of_pre _ _ (hpre d))),
    (θ_run Cert.ReferenceIdeal.defs _ _).mono
      (fun _ h c => ⟨(h c).1.trans (by rw [(hagree c).1, (hagree c).2]; rfl), (h c).2⟩)
      (Cert.RefRun.run m' g' (fun c => by rw [(hagree c).1]; exact Cert.Spec.inRange_of_pre _ _ (hpre c)))⟩

theorem claim : Cert.Claim := ⟨Cert.Kernel.Gen.facts, Cert.KernelIdeal.Gen.facts, Cert.ReferenceIdeal.Gen.facts, Cert.Pre_input_domain.Gen.facts,
  frame_kernel, frame_kernelIdeal, frame_reference, preserves, algebraic⟩

end Cert.Proof

end
